-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_arg10 : FVec F S128x64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128x64 .f32) (main_arg9 : FVec F S64 .f32) (main_arg10 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S40000x128 .f32) (main_arg1 : IVec S2x640000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x64 .f32) (main_arg9 : FVec F S64 .f32) (main_arg10 : FVec F S128x64 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S40000 : Shape := ⟨1, ![40000]⟩
abbrev S640000x1 : Shape := ⟨2, ![640000, 1]⟩
abbrev S640000x128 : Shape := ⟨2, ![640000, 128]⟩
abbrev S40000x1 : Shape := ⟨2, ![40000, 1]⟩
abbrev S2000x128 : Shape := ⟨2, ![2000, 128]⟩
abbrev S2000x1 : Shape := ⟨2, ![2000, 1]⟩
abbrev S1x128 : Shape := ⟨2, ![1, 128]⟩
abbrev S40000x64 : Shape := ⟨2, ![40000, 64]⟩
abbrev S2000x64 : Shape := ⟨2, ![2000, 64]⟩
abbrev S1x64 : Shape := ⟨2, ![1, 64]⟩

abbrev nBuf : Space → Nat
  | .hbm => 66
  | .vmem => 33
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .f32⟩
  | .hbm, ⟨16, _⟩ => ⟨S640000, .f32⟩
  | .hbm, ⟨17, _⟩ => ⟨S_, .f32⟩
  | .hbm, ⟨18, _⟩ => ⟨S40000, .f32⟩
  | .hbm, ⟨19, _⟩ => ⟨S640000x1, .i32⟩
  | .hbm, ⟨20, _⟩ => ⟨S40000, .f32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000x128, .f32⟩
  | .hbm, ⟨30, _⟩ => ⟨S_, .f32⟩
  | .hbm, ⟨31, _⟩ => ⟨S40000x128, .f32⟩
  | .hbm, ⟨32, _⟩ => ⟨S640000x1, .i32⟩
  | .hbm, ⟨33, _⟩ => ⟨S40000x128, .f32⟩
  | .hbm, ⟨34, _⟩ => ⟨S40000x1, .f32⟩
  | .hbm, ⟨35, _⟩ => ⟨S40000x128, .f32⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S640000x128, .f32⟩
  | .hbm, ⟨45, _⟩ => ⟨S_, .f32⟩
  | .hbm, ⟨46, _⟩ => ⟨S40000x128, .f32⟩
  | .hbm, ⟨47, _⟩ => ⟨S640000x1, .i32⟩
  | .hbm, ⟨48, _⟩ => ⟨S40000x128, .f32⟩
  | .hbm, ⟨49, _⟩ => ⟨S40000x1, .f32⟩
  | .hbm, ⟨50, _⟩ => ⟨S40000x128, .f32⟩
  | .hbm, ⟨51, _⟩ => ⟨S_, .i32⟩
  | .hbm, ⟨52, _⟩ => ⟨S640000, .i32⟩
  | .hbm, ⟨53, _⟩ => ⟨S640000, .i1⟩
  | .hbm, ⟨54, _⟩ => ⟨S_, .i32⟩
  | .hbm, ⟨55, _⟩ => ⟨S640000, .i32⟩
  | .hbm, ⟨56, _⟩ => ⟨S640000, .i32⟩
  | .hbm, ⟨57, _⟩ => ⟨S640000, .i32⟩
  | .hbm, ⟨58, _⟩ => ⟨S640000x1, .i32⟩
  | .hbm, ⟨59, _⟩ => ⟨S640000x128, .f32⟩
  | .hbm, ⟨60, _⟩ => ⟨S_, .f32⟩
  | .hbm, ⟨61, _⟩ => ⟨S40000x128, .f32⟩
  | .hbm, ⟨62, _⟩ => ⟨S640000x1, .i32⟩
  | .hbm, ⟨63, _⟩ => ⟨S40000x128, .f32⟩
  | .hbm, ⟨64, _⟩ => ⟨S40000x1, .f32⟩
  | .hbm, ⟨65, _⟩ => ⟨S40000x64, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S2000x128, .f32⟩
  | .local _ .vmem, ⟨16, _⟩ => ⟨S2000x128, .f32⟩
  | .local _ .vmem, ⟨17, _⟩ => ⟨S128x128, .f32⟩
  | .local _ .vmem, ⟨18, _⟩ => ⟨S128, .f32⟩
  | .local _ .vmem, ⟨19, _⟩ => ⟨S128x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x1, .f32⟩
  | .local _ .vmem, ⟨25, _⟩ => ⟨S2000x1, .f32⟩
  | .local _ .vmem, ⟨26, _⟩ => ⟨S2000x128, .f32⟩
  | .local _ .vmem, ⟨27, _⟩ => ⟨S2000x128, .f32⟩
  | .local _ .vmem, ⟨28, _⟩ => ⟨S128x64, .f32⟩
  | .local _ .vmem, ⟨29, _⟩ => ⟨S64, .f32⟩
  | .local _ .vmem, ⟨30, _⟩ => ⟨S128x64, .f32⟩
  | .local _ .vmem, ⟨31, _⟩ => ⟨S2000x64, .f32⟩
  | .local _ .vmem, ⟨32, _⟩ => ⟨S2000x64, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  shapeCasts_S40000_S40000x1 : S40000.ShapeCasts S40000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S40000_S640000x1_S640000_n_0_0_1_wf : ScatterDims.WF S40000 S640000x1 S640000 [] [0] [0] 1
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S40000x128.size a
  hwx0_0 : ∀ i : grid0.Coords, EltTy.bits .f32 = 32 ∨ (Rect.block (s := S40000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S40000x1.size a
  hwx0_1 : ∀ i : grid0.Coords, EltTy.bits .f32 = 32 ∨ (Rect.block (s := S40000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S40000x128.size a
  hwx0_2 : ∀ i : grid0.Coords, EltTy.bits .f32 = 32 ∨ (Rect.block (s := S40000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S40000x128.size a
  hwx0_6 : ∀ i : grid0.Coords, EltTy.bits .f32 = 32 ∨ (Rect.block (s := S40000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S40000x128.size a
  hwx1_0 : ∀ i : grid1.Coords, EltTy.bits .f32 = 32 ∨ (Rect.block (s := S40000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S40000x1.size a
  hwx1_1 : ∀ i : grid1.Coords, EltTy.bits .f32 = 32 ∨ (Rect.block (s := S40000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S40000x128.size a
  hwx1_2 : ∀ i : grid1.Coords, EltTy.bits .f32 = 32 ∨ (Rect.block (s := S40000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S40000x128.size a
  hwx1_6 : ∀ i : grid1.Coords, EltTy.bits .f32 = 32 ∨ (Rect.block (s := S40000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S40000x128.size a
  hwx2_0 : ∀ i : grid2.Coords, EltTy.bits .f32 = 32 ∨ (Rect.block (s := S40000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S40000x1.size a
  hwx2_1 : ∀ i : grid2.Coords, EltTy.bits .f32 = 32 ∨ (Rect.block (s := S40000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S40000x128.size a
  hwx2_2 : ∀ i : grid2.Coords, EltTy.bits .f32 = 32 ∨ (Rect.block (s := S40000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x64.size a ≤ S128x64.size a
  hwx2_5 : ∀ i : grid2.Coords, EltTy.bits .f32 = 32 ∨ (Rect.block (s := S128x64) S128x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x64.size a ≤ S40000x64.size a
  hwx2_6 : ∀ i : grid2.Coords, EltTy.bits .f32 = 32 ∨ (Rect.block (s := S40000x64) S2000x64.size (cc2_transform_6 i) (hinb2_6 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v17) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v29) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v41) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S128x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v43) S2000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S1x128 : Shape := ⟨2, ![1, 128]⟩
abbrev S40000x64 : Shape := ⟨2, ![40000, 64]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S_, .f32⟩
  | .hbm, ⟨25, _⟩ => ⟨S40000x128, .f32⟩
  | .hbm, ⟨26, _⟩ => ⟨S640000x1, .i32⟩
  | .hbm, ⟨27, _⟩ => ⟨S40000x128, .f32⟩
  | .hbm, ⟨28, _⟩ => ⟨S_, .f32⟩
  | .hbm, ⟨29, _⟩ => ⟨S640000, .f32⟩
  | .hbm, ⟨30, _⟩ => ⟨S_, .f32⟩
  | .hbm, ⟨31, _⟩ => ⟨S40000, .f32⟩
  | .hbm, ⟨32, _⟩ => ⟨S640000x1, .i32⟩
  | .hbm, ⟨33, _⟩ => ⟨S40000, .f32⟩
  | .hbm, ⟨34, _⟩ => ⟨S_, .f32⟩
  | .hbm, ⟨35, _⟩ => ⟨S40000, .f32⟩
  | .hbm, ⟨36, _⟩ => ⟨S40000, .f32⟩
  | .hbm, ⟨37, _⟩ => ⟨S40000x1, .f32⟩
  | .hbm, ⟨38, _⟩ => ⟨S40000x128, .f32⟩
  | .hbm, ⟨39, _⟩ => ⟨S40000x128, .f32⟩
  | .hbm, ⟨40, _⟩ => ⟨S40000x128, .f32⟩
  | .hbm, ⟨41, _⟩ => ⟨S1x128, .f32⟩
  | .hbm, ⟨42, _⟩ => ⟨S40000x128, .f32⟩
  | .hbm, ⟨43, _⟩ => ⟨S40000x128, .f32⟩
  | .hbm, ⟨44, _⟩ => ⟨S40000x128, .f32⟩
  | .hbm, ⟨45, _⟩ => ⟨S40000x128, .f32⟩
  | .hbm, ⟨46, _⟩ => ⟨S_, .f32⟩
  | .hbm, ⟨47, _⟩ => ⟨S40000x128, .f32⟩
  | .hbm, ⟨48, _⟩ => ⟨S40000x128, .f32⟩
  | .hbm, ⟨49, _⟩ => ⟨S_, .i32⟩
  | .hbm, ⟨50, _⟩ => ⟨S640000, .i32⟩
  | .hbm, ⟨51, _⟩ => ⟨S640000, .i1⟩
  | .hbm, ⟨52, _⟩ => ⟨S_, .i32⟩
  | .hbm, ⟨53, _⟩ => ⟨S640000, .i32⟩
  | .hbm, ⟨54, _⟩ => ⟨S640000, .i32⟩
  | .hbm, ⟨55, _⟩ => ⟨S640000, .i32⟩
  | .hbm, ⟨56, _⟩ => ⟨S640000x1, .i32⟩
  | .hbm, ⟨57, _⟩ => ⟨S640000x128, .f32⟩
  | .hbm, ⟨58, _⟩ => ⟨S_, .f32⟩
  | .hbm, ⟨59, _⟩ => ⟨S40000x128, .f32⟩
  | .hbm, ⟨60, _⟩ => ⟨S640000x1, .i32⟩
  | .hbm, ⟨61, _⟩ => ⟨S40000x128, .f32⟩
  | .hbm, ⟨62, _⟩ => ⟨S_, .f32⟩
  | .hbm, ⟨63, _⟩ => ⟨S640000, .f32⟩
  | .hbm, ⟨64, _⟩ => ⟨S_, .f32⟩
  | .hbm, ⟨65, _⟩ => ⟨S40000, .f32⟩
  | .hbm, ⟨66, _⟩ => ⟨S640000x1, .i32⟩
  | .hbm, ⟨67, _⟩ => ⟨S40000, .f32⟩
  | .hbm, ⟨68, _⟩ => ⟨S_, .f32⟩
  | .hbm, ⟨69, _⟩ => ⟨S40000, .f32⟩
  | .hbm, ⟨70, _⟩ => ⟨S40000, .f32⟩
  | .hbm, ⟨71, _⟩ => ⟨S40000x1, .f32⟩
  | .hbm, ⟨72, _⟩ => ⟨S40000x128, .f32⟩
  | .hbm, ⟨73, _⟩ => ⟨S40000x128, .f32⟩
  | .hbm, ⟨74, _⟩ => ⟨S40000x128, .f32⟩
  | .hbm, ⟨75, _⟩ => ⟨S1x128, .f32⟩
  | .hbm, ⟨76, _⟩ => ⟨S40000x128, .f32⟩
  | .hbm, ⟨77, _⟩ => ⟨S40000x128, .f32⟩
  | .hbm, ⟨78, _⟩ => ⟨S40000x128, .f32⟩
  | .hbm, ⟨79, _⟩ => ⟨S40000x128, .f32⟩
  | .hbm, ⟨80, _⟩ => ⟨S_, .f32⟩
  | .hbm, ⟨81, _⟩ => ⟨S40000x128, .f32⟩
  | .hbm, ⟨82, _⟩ => ⟨S40000x128, .f32⟩
  | .hbm, ⟨83, _⟩ => ⟨S_, .i32⟩
  | .hbm, ⟨84, _⟩ => ⟨S640000, .i32⟩
  | .hbm, ⟨85, _⟩ => ⟨S640000, .i1⟩
  | .hbm, ⟨86, _⟩ => ⟨S_, .i32⟩
  | .hbm, ⟨87, _⟩ => ⟨S640000, .i32⟩
  | .hbm, ⟨88, _⟩ => ⟨S640000, .i32⟩
  | .hbm, ⟨89, _⟩ => ⟨S640000, .i32⟩
  | .hbm, ⟨90, _⟩ => ⟨S640000x1, .i32⟩
  | .hbm, ⟨91, _⟩ => ⟨S640000x128, .f32⟩
  | .hbm, ⟨92, _⟩ => ⟨S_, .f32⟩
  | .hbm, ⟨93, _⟩ => ⟨S40000x128, .f32⟩
  | .hbm, ⟨94, _⟩ => ⟨S640000x1, .i32⟩
  | .hbm, ⟨95, _⟩ => ⟨S40000x128, .f32⟩
  | .hbm, ⟨96, _⟩ => ⟨S_, .f32⟩
  | .hbm, ⟨97, _⟩ => ⟨S640000, .f32⟩
  | .hbm, ⟨98, _⟩ => ⟨S_, .f32⟩
  | .hbm, ⟨99, _⟩ => ⟨S40000, .f32⟩
  | .hbm, ⟨100, _⟩ => ⟨S640000x1, .i32⟩
  | .hbm, ⟨101, _⟩ => ⟨S40000, .f32⟩
  | .hbm, ⟨102, _⟩ => ⟨S_, .f32⟩
  | .hbm, ⟨103, _⟩ => ⟨S40000, .f32⟩
  | .hbm, ⟨104, _⟩ => ⟨S40000, .f32⟩
  | .hbm, ⟨105, _⟩ => ⟨S40000x1, .f32⟩
  | .hbm, ⟨106, _⟩ => ⟨S40000x128, .f32⟩
  | .hbm, ⟨107, _⟩ => ⟨S40000x128, .f32⟩
  | .hbm, ⟨108, _⟩ => ⟨S40000x64, .f32⟩
  | .hbm, ⟨109, _⟩ => ⟨S1x64, .f32⟩
  | .hbm, ⟨110, _⟩ => ⟨S40000x64, .f32⟩
  | .hbm, ⟨111, _⟩ => ⟨S40000x64, .f32⟩
  | .hbm, ⟨112, _⟩ => ⟨S40000x64, .f32⟩
  | .hbm, ⟨113, _⟩ => ⟨S40000x64, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S64_S1x64_1 : S64.BroadcastsInDim S1x64 (![1] : Fin 1 → Fin S1x64.rank)
  bcast_S1x64_S40000x64_0_1 : S1x64.BroadcastsInDim S40000x64 (![0, 1] : Fin 2 → Fin S40000x64.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x128_S128x128_S40000x128_1_0_0_1_n_n_wf : DotDims.WF S40000x128 S128x128 S40000x128 [1] [0] [0] [1] [] []
  dot_S40000x128_S128x64_S40000x64_1_0_0_1_n_n_wf : DotDims.WF S40000x128 S128x64 S40000x64 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def dot_S40000x128_S128x64_S40000x64_1_0_0_1_n_n : DotDims S40000x128 S128x64 S40000x64 where
  lhsContracting := [1]
  rhsContracting := [0]
  lhsNonContracting := [0]
  rhsNonContracting := [1]
  lhsBatch := []
  rhsBatch := []
  wf := dot_S40000x128_S128x64_S40000x64_1_0_0_1_n_n_wf

class Facts : Prop extends Facts₀ where

variable [Facts]
-- ==== Proof.KernelRun.lean ====
/-
  The idealized kernel's run, with its result.

  The program is three launches of the layer kernel with host operations before each.  The contents of the core's
  buffers at the six boundaries between these pieces are a fold from the launch memory: a host stretch applies its
  operations; a launch replaces the arrays of its windows by what its write-backs leave and keeps every other buffer.
  Every weakly fair execution terminates with each buffer that outlives the launches at the last boundary's contents —
  the arguments as launched, and the result buffer at the last boundary's value for it, which the modules that import
  this one compute.
-/
import proofs.«165337_j12541304504870_1_alg».proof.Proof.Gen.KernelIdeal.Frame

set_option maxRecDepth 16384

noncomputable section

namespace Cert.KernelIdeal.SageValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v43) = W6 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v43 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.SageValue

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.LibHostForms.lean ====
/-
  Host-side readings at an entry (p, q), on the extended reals and for variable extents.

  A bias kept as a row: the host's broadcast of a vector [b] to a row [1, b] along axis 1 reads at (0, q) the entry q,
  and its broadcast of a row [1, b] to [a, b] reads at (p, q) the row's entry (0, q).  And the host's ordinary matrix
  product — an [a, n] array times an [n, b] array, contracting the second axis of the left with the first of the right,
  no batch axis — is at (p, q) the sum over k of left (p, k) · right (k, q).
-/
import Idealize.ShloMosaic.Lib.Pipeline.Value
import Idealize.ShloMosaic.Lib.ValueIdx
import Idealize.ShloMosaic.PureOps.Ideal.Laws
import proofs.«165337_j12541304504870_1_alg».proof.Proof.LibPlainMatmul

noncomputable section

open scoped BigOperators

namespace Cert.HostForms

open Idealize.ShloMosaic Idealize.ShloMosaic.ValueIdx

variable {α : Type}

/-- The host's broadcast of a vector [b] to a row [1, b] along axis 1 reads, at (z, q), its entry `q`. -/
theorem host_row_apply {b : ℕ} (v : (⟨1, ![b]⟩ : Shape).Idx → α)
    (h : (⟨1, ![b]⟩ : Shape).BroadcastsInDim ⟨2, ![1, b]⟩ ![1]) (z : Fin 1) (q : Fin b) :
    broadcastInDim ⟨2, ![1, b]⟩ ![1] h v (ix2 z q) = v (ix1 q) := by
  refine broadcastInDim_apply _ h v (ix2 z q) (ix1 q) fun ax => ?_
  match ax with
  | ⟨0, _⟩ =>
    show q.val = if b = 1 then 0 else q.val
    split
    · have := q.isLt; omega
    · rfl

/-- The host's broadcast of a row [1, b] to [a, b] reads, at (p, q), the row's entry of column `q`. -/
theorem host_row_repeat_apply {a b : ℕ} (u : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h u (ix2 p q) = u (ix2 (0 : Fin 1) q) := by
  refine broadcastInDim_apply _ h u (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- The host's ordinary product: at (p, q) the sum over k of left (p, k) · right (k, q). -/
theorem host_product_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    Host.dotGeneral (F := Ideal) (Cert.PlainMatmul.dims wf) prec L R (ix2 p q)
      = ∑ k : Fin n, L (ix2 p k) * R (ix2 k q) := by
  simp only [Host.dotGeneral]
  rw [Ideal.dotGeneral_apply, ← Equiv.sum_comp (contrEquiv1 (Cert.PlainMatmul.dims wf) n rfl rfl).symm]
  refine Finset.sum_congr rfl fun k _ => ?_
  have hk := contrEquiv1_symm_val (Cert.PlainMatmul.dims wf) n rfl rfl k
  have el : (Cert.PlainMatmul.dims wf).lhsIdx (ix2 p q) ((contrEquiv1 (Cert.PlainMatmul.dims wf) n rfl rfl).symm k) = ix2 p k :=
    funext fun ax => Fin.ext (by
      match ax with
      | ⟨0, _⟩ => rfl
      | ⟨1, _⟩ => exact ((Cert.PlainMatmul.dims wf).lhsIdx_val_of_single rfl _ _).trans hk)
  have er : (Cert.PlainMatmul.dims wf).rhsIdx (ix2 p q) ((contrEquiv1 (Cert.PlainMatmul.dims wf) n rfl rfl).symm k) = ix2 k q :=
    funext fun ax => Fin.ext (by
      match ax with
      | ⟨0, _⟩ => exact ((Cert.PlainMatmul.dims wf).rhsIdx_val_of_single rfl _ _).trans hk
      | ⟨1, _⟩ => rfl)
  rw [el, er]

end Cert.HostForms

end
-- ==== Proof.LibKeepdims.lean ====
/-
  Readings at an entry (p, q) for the shapes a mean or a length "per row, kept as a column" goes through, in the
  vector form (a cast [a] → [a, 1], a repeat [a, 1] → [a, b]) and in the host form (a broadcast-in-dimension [a] → [a, 1]
  along axis 0, [a, 1] → [a, b] along both axes), and the host's sum over the second axis of an [a, n] array read on the
  extended reals: the initial value plus the sum over d of the entries (p, d).
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Keepdims

open Idealize.ShloMosaic Idealize.ShloMosaic.ValueIdx

variable {α : Type}

/-- A column [a, 1] repeated along `b` columns reads, at (p, q), the column's entry of row `p`. -/
theorem column_repeat_apply {a b : ℕ} (u : (⟨2, ![a, 1]⟩ : Shape).Idx → α)
    (hb : (⟨2, ![a, 1]⟩ : Shape).Broadcasts ⟨2, ![a, b]⟩) (p : Fin a) (q : Fin b) :
    broadcastTo ⟨2, ![a, b]⟩ u hb (ix2 p q) = u (ix2 p (0 : Fin 1)) := by
  refine broadcastTo_apply _ hb (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- A vector [a] kept as a column [a, 1] reads, at (p, 0), its entry `p`. -/
theorem column_cast_apply {a : ℕ} (v : (⟨1, ![a]⟩ : Shape).Idx → α)
    (hc : (⟨1, ![a]⟩ : Shape).ShapeCasts ⟨2, ![a, 1]⟩) (p : Fin a) :
    shapeCast ⟨2, ![a, 1]⟩ v hc (ix2 p (0 : Fin 1)) = v (ix1 p) :=
  shapeCast_apply v hc _ _ (by
    rw [Shape.rowMajor_val_one, Shape.rowMajor_val_two]
    show p.val = p.val * 1 + 0
    omega)

/-- The host's broadcast of a vector [a] to a column [a, 1] along axis 0 reads, at (p, 0), its entry `p`. -/
theorem host_column_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- The host's broadcast of a column [a, 1] to [a, b] reads, at (p, q), the column's entry of row `p`. -/
theorem host_column_repeat_apply {a b : ℕ} (u : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h u (ix2 p q) = u (ix2 p (0 : Fin 1)) := by
  refine broadcastInDim_apply _ h u (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- The host's sum over the second axis of an [a, n] array of extended reals: at row `p` the initial value plus the sum
    over `d` of the entries (p, d). -/
theorem host_sum_over_columns_apply {a n : ℕ} (x : FVec Ideal ⟨2, ![a, n]⟩ .f32) (init : FVec Ideal ⟨0, ![]⟩ .f32)
    (h : (⟨2, ![a, n]⟩ : Shape).ReducesTo [1] ⟨1, ![a]⟩) (h' : (⟨2, ![a, n]⟩ : Shape).Reduces [1] ⟨1, ![a]⟩)
    (hu : 0 < (⟨0, ![]⟩ : Shape).numel) (p : Fin a) :
    Host.reduceAdd x init h hu (ix1 p) = init ix0 + ∑ d : Fin n, x (ix2 p d) := by
  rw [hostReduceAdd_apply, Ideal.hostReduceAdd_single h h', eq_ix0 (Shape.Idx.first hu)]
  refine congrArg (_ + ·) (Finset.sum_congr rfl fun d _ => ?_)
  exact congrArg x (funext fun ax => Fin.ext (by
    match ax with
    | ⟨0, _⟩ => rfl
    | ⟨1, _⟩ => rfl))

end Cert.Keepdims

end
-- ==== Proof.SageLayer.lean ====
/-
  One mean-aggregation graph layer, read at an entry.

  A node's new features are  (A / max(deg, 1)) · Wl + bl + H · Wr : from the array A of summed neighbour features the
  mean is taken row by row (a row with no neighbour divides by 1), the mean and the node's own features H each go through
  a linear map, and the bias bl is added between the two products — grouped as ((A/… · Wl) + bl) + H · Wr.  At the entry
  (p, q) that is

      ( Σ_k A(p,k) / max(deg p, 1) · Wl(k,q)  +  bl q )  +  Σ_k H(p,k) · Wr(k,q)

  on the extended reals.  `conv` is that function, for any number of rows and any widths; the number 1 is kept as the
  float word that denotes it, the same word wherever it is read.  Below, the host's spelling of the layer (a quotient by
  the clipped degree kept as a column and repeated, two ordinary products, the bias kept as a row and repeated) is shown
  to be `conv` entry by entry.  No law of arithmetic is used: both spellings perform the same operations in the same order.
-/
import Idealize.ShloMosaic.Lib.Pipeline.Value
import Idealize.ShloMosaic.Lib.ValueIdx
import Idealize.ShloMosaic.PureOps.Ideal.Laws
import proofs.«165337_j12541304504870_1_alg».proof.Proof.LibPlainMatmul
import proofs.«165337_j12541304504870_1_alg».proof.Proof.LibHostForms
import proofs.«165337_j12541304504870_1_alg».proof.Proof.LibKeepdims

noncomputable section

open scoped BigOperators

namespace Cert.Sage

open Idealize.ShloMosaic Idealize.ShloMosaic.ValueIdx

variable {n fi fo : ℕ}

/-- The layer at an entry: the mean of the neighbours through `Wl`, plus the bias, plus the node itself through `Wr`.
    `dg p` is the number of neighbours of node `p`. -/
def conv (agg : FVec Ideal ⟨2, ![n, fi]⟩ .f32) (dg : Fin n → Ideal .f32) (h : FVec Ideal ⟨2, ![n, fi]⟩ .f32)
    (Wl : FVec Ideal ⟨2, ![fi, fo]⟩ .f32) (bl : FVec Ideal ⟨1, ![fo]⟩ .f32) (Wr : FVec Ideal ⟨2, ![fi, fo]⟩ .f32) :
    FVec Ideal ⟨2, ![n, fo]⟩ .f32 := fun i =>
  ((∑ k : Fin fi, Ideal.div (agg (ix2 (i 0) k)) (max (dg (i 0)) (Ideal.ofBits .f32 0x3F800000#32)) * Wl (ix2 k (i 1)))
      + bl (ix1 (i 1)))
    + ∑ k : Fin fi, h (ix2 (i 0) k) * Wr (ix2 k (i 1))

/-- The layer followed by the positive part. -/
def convPos (agg : FVec Ideal ⟨2, ![n, fi]⟩ .f32) (dg : Fin n → Ideal .f32) (h : FVec Ideal ⟨2, ![n, fi]⟩ .f32)
    (Wl : FVec Ideal ⟨2, ![fi, fo]⟩ .f32) (bl : FVec Ideal ⟨1, ![fo]⟩ .f32) (Wr : FVec Ideal ⟨2, ![fi, fo]⟩ .f32) :
    FVec Ideal ⟨2, ![n, fo]⟩ .f32 := fun i =>
  max (conv agg dg h Wl bl Wr i) (Ideal.ofBits .f32 0x00000000#32)

/-- The layer at the entry (p, q), its coordinates named. -/
theorem conv_apply (agg : FVec Ideal ⟨2, ![n, fi]⟩ .f32) (dg : Fin n → Ideal .f32) (h : FVec Ideal ⟨2, ![n, fi]⟩ .f32)
    (Wl : FVec Ideal ⟨2, ![fi, fo]⟩ .f32) (bl : FVec Ideal ⟨1, ![fo]⟩ .f32) (Wr : FVec Ideal ⟨2, ![fi, fo]⟩ .f32)
    (p : Fin n) (q : Fin fo) :
    conv agg dg h Wl bl Wr (ix2 p q)
      = ((∑ k : Fin fi, Ideal.div (agg (ix2 p k)) (max (dg p) (Ideal.ofBits .f32 0x3F800000#32)) * Wl (ix2 k q)) + bl (ix1 q))
        + ∑ k : Fin fi, h (ix2 p k) * Wr (ix2 k q) := rfl

/-- The layer followed by the positive part at the entry (p, q). -/
theorem convPos_apply (agg : FVec Ideal ⟨2, ![n, fi]⟩ .f32) (dg : Fin n → Ideal .f32) (h : FVec Ideal ⟨2, ![n, fi]⟩ .f32)
    (Wl : FVec Ideal ⟨2, ![fi, fo]⟩ .f32) (bl : FVec Ideal ⟨1, ![fo]⟩ .f32) (Wr : FVec Ideal ⟨2, ![fi, fo]⟩ .f32)
    (p : Fin n) (q : Fin fo) :
    convPos agg dg h Wl bl Wr (ix2 p q)
      = max (((∑ k : Fin fi, Ideal.div (agg (ix2 p k)) (max (dg p) (Ideal.ofBits .f32 0x3F800000#32)) * Wl (ix2 k q)) + bl (ix1 q))
        + ∑ k : Fin fi, h (ix2 p k) * Wr (ix2 k q)) (Ideal.ofBits .f32 0x00000000#32) := rfl

/-- A scalar repeated to a vector reads the scalar at every entry. -/
theorem host_scalar_apply {α : Type} (v : (⟨0, ![]⟩ : Shape).Idx → α)
    (h : (⟨0, ![]⟩ : Shape).BroadcastsInDim ⟨1, ![n]⟩ ![]) (j : (⟨1, ![n]⟩ : Shape).Idx) :
    broadcastInDim ⟨1, ![n]⟩ ![] h v j = v ix0 :=
  broadcastInDim_apply _ h v j ix0 fun ax => ax.elim0

/-- The clipped degree, kept as a column and repeated along the columns, reads at (p, k) the larger of `deg p` and 1. -/
theorem host_denominator_apply (deg : FVec Ideal ⟨1, ![n]⟩ .f32)
    (h0 : (⟨0, ![]⟩ : Shape).BroadcastsInDim ⟨1, ![n]⟩ ![])
    (h1 : (⟨1, ![n]⟩ : Shape).BroadcastsInDim ⟨2, ![n, 1]⟩ ![0])
    (h2 : (⟨2, ![n, 1]⟩ : Shape).BroadcastsInDim ⟨2, ![n, fi]⟩ ![0, 1]) (p : Fin n) (k : Fin fi) :
    broadcastInDim ⟨2, ![n, fi]⟩ ![0, 1] h2 (broadcastInDim ⟨2, ![n, 1]⟩ ![0] h1
        (maximumf deg (broadcastInDim ⟨1, ![n]⟩ ![] h0 (constant (F := Ideal) ⟨0, ![]⟩ .f32 0x3F800000#32)))) (ix2 p k)
      = max (deg (ix1 p)) (Ideal.ofBits .f32 0x3F800000#32) := by
  rw [Cert.Keepdims.host_column_repeat_apply, Cert.Keepdims.host_column_apply, maximumf_apply, host_scalar_apply]
  rfl

/-- THE HOST'S LAYER IS `conv`: the quotient by the repeated clipped degree, the product with `Wl`, the bias kept as a
    row and repeated, and the product of the node features with `Wr`, added in that order. -/
theorem host_conv (d : DotDims ⟨2, ![n, fi]⟩ ⟨2, ![fi, fo]⟩ ⟨2, ![n, fo]⟩)
    (wf : DotDims.WF ⟨2, ![n, fi]⟩ ⟨2, ![fi, fo]⟩ ⟨2, ![n, fo]⟩ [1] [0] [0] [1] [] [])
    (hd : d = Cert.PlainMatmul.dims wf)
    (h0 : (⟨0, ![]⟩ : Shape).BroadcastsInDim ⟨1, ![n]⟩ ![])
    (h1 : (⟨1, ![n]⟩ : Shape).BroadcastsInDim ⟨2, ![n, 1]⟩ ![0])
    (h2 : (⟨2, ![n, 1]⟩ : Shape).BroadcastsInDim ⟨2, ![n, fi]⟩ ![0, 1])
    (h3 : (⟨1, ![fo]⟩ : Shape).BroadcastsInDim ⟨2, ![1, fo]⟩ ![1])
    (h4 : (⟨2, ![1, fo]⟩ : Shape).BroadcastsInDim ⟨2, ![n, fo]⟩ ![0, 1])
    (agg : FVec Ideal ⟨2, ![n, fi]⟩ .f32) (deg : FVec Ideal ⟨1, ![n]⟩ .f32) (h : FVec Ideal ⟨2, ![n, fi]⟩ .f32)
    (Wl : FVec Ideal ⟨2, ![fi, fo]⟩ .f32) (bl : FVec Ideal ⟨1, ![fo]⟩ .f32) (Wr : FVec Ideal ⟨2, ![fi, fo]⟩ .f32) :
    addf (addf (Host.dotGeneral (F := Ideal) d none
            (Host.divf agg (broadcastInDim ⟨2, ![n, fi]⟩ ![0, 1] h2 (broadcastInDim ⟨2, ![n, 1]⟩ ![0] h1
              (maximumf deg (broadcastInDim ⟨1, ![n]⟩ ![] h0 (constant (F := Ideal) ⟨0, ![]⟩ .f32 0x3F800000#32)))))) Wl)
          (broadcastInDim ⟨2, ![n, fo]⟩ ![0, 1] h4 (broadcastInDim ⟨2, ![1, fo]⟩ ![1] h3 bl)))
        (Host.dotGeneral (F := Ideal) d none h Wr)
      = conv agg (fun p => deg (ix1 p)) h Wl bl Wr := by
  subst hd
  funext i
  obtain ⟨p, q, rfl⟩ : ∃ (p : Fin n) (q : Fin fo), i = ix2 p q := ⟨i 0, i 1, eq_ix2 i⟩
  rw [addf_apply, addf_apply, Cert.HostForms.host_product_apply, Cert.HostForms.host_product_apply,
    Cert.HostForms.host_row_repeat_apply, Cert.HostForms.host_row_apply]
  unfold conv
  refine congrArg₂ (· + ·) (congrArg₂ (· + ·) (Finset.sum_congr rfl fun k _ => ?_) rfl) rfl
  show Ideal.div (agg (ix2 p k)) _ * _ = _
  rw [host_denominator_apply]
  rfl

end Cert.Sage

end
-- ==== Proof.LibRowOps.lean ====
/-
  Three readings at an entry (p, q) of a two-axis array, for the shapes a row-wise reduction meets.

  A vector of one value per row, kept as a column [a, 1] and repeated along the columns, reads at (p, q) its value
  for row p.  A vector of one value per column, kept as a row [1, b] and repeated along the rows, reads at (p, q) its
  value for column q.  And the sum over the second axis of an [a, n] array, read on the extended reals, is at row p
  the sum over d of the entries (p, d).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RowOps

open Idealize.ShloMosaic Idealize.ShloMosaic.ValueIdx

variable {α : Type}

/-- One value per row, kept as a column and repeated along `b` columns: at (p, q) it is the value of row `p`. -/
theorem column_repeated_apply {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hc) hb (ix2 p q) = v (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else q.val
      rw [if_pos rfl]
  · exact shapeCast_apply v hc _ _ (by
      rw [Shape.rowMajor_val_one, Shape.rowMajor_val_two]
      show p.val = p.val * 1 + 0
      omega)

/-- One value per column, kept as a row and repeated along `a` rows: at (p, q) it is the value of column `q`. -/
theorem row_repeated_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The sum over the second axis of an [a, n] array of extended reals: at row `p` the sum over `d` of the entries (p, d). -/
theorem sum_over_columns_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin n, src (ix2 p d) :=
  (Ideal.multiReduction_add_single src 0x00000000#32 h hφ hacc (ix1 p)).trans
    (Finset.sum_congr rfl fun d _ => congrArg src (funext fun ax => Fin.ext (by
      match ax with
      | ⟨0, _⟩ => rfl
      | ⟨1, _⟩ => rfl)))

end Cert.RowOps

end
-- ==== Proof.KernelStored.lean ====
/-
  What each of the three kernel bodies stores, read at an entry of its block.

  A body loads a block of 2000 rows of the summed neighbour features, the same rows of the degree column and of the node
  features, the two weight matrices whole and the bias, and stores, at row p and column q of the block,

      max( ( Σ_k A(p,k) / max(d(p,0), 1) · Wl(k,q) + bl q ) + Σ_k H(p,k) · Wr(k,q) , 0 )

  (the third body without the outer max).  On the extended reals the roundings to the narrow format on the way into the
  two products are the identity, a product accumulated onto zeros is the plain sum over k, the degree column repeated
  along the columns reads its row's entry, and the bias kept as a row and repeated reads its column's entry: so the stored
  value is the layer `Cert.Sage.conv` of the loaded blocks, entry by entry.
-/
import proofs.«165337_j12541304504870_1_alg».proof.Proof.Gen.KernelIdeal.Skeleton
import proofs.«165337_j12541304504870_1_alg».proof.Proof.SageLayer
import proofs.«165337_j12541304504870_1_alg».proof.Proof.LibRowOps
import proofs.«165337_j12541304504870_1_alg».proof.Proof.LibKeepdims
import proofs.«165337_j12541304504870_1_alg».proof.Proof.LibPlainMatmul

noncomputable section

open scoped BigOperators

namespace Cert.KernelIdeal.SageValue

open Cert.KernelIdeal Cert.KernelIdeal.Gen Idealize.ShloMosaic Idealize.ShloMosaic.ValueIdx

/-- A 2000-row block times a 128 × 128 matrix, accumulated onto zeros: at (p, q) the sum over k of L (p, k) · R (k, q). -/
theorem product_wide (L : FVec Ideal S2000x128 .bf16) (R : FVec Ideal S128x128 .bf16) (p : Fin 2000) (q : Fin 128) :
    matmul dot_S2000x128_S128x128_S2000x128_1_0_0_1_n_n none L R (constant S2000x128 .f32 0x00000000#32) (ix2 p q)
      = ∑ k : Fin 128, L (ix2 p k) * R (ix2 k q) :=
  Cert.PlainMatmul.zero_acc_apply dot_S2000x128_S128x128_S2000x128_1_0_0_1_n_n_wf none L R p q

/-- A 2000-row block times a 128 × 64 matrix, accumulated onto zeros: the same sum. -/
theorem product_narrow (L : FVec Ideal S2000x128 .bf16) (R : FVec Ideal S128x64 .bf16) (p : Fin 2000) (q : Fin 64) :
    matmul dot_S2000x128_S128x64_S2000x64_1_0_0_1_n_n none L R (constant S2000x64 .f32 0x00000000#32) (ix2 p q)
      = ∑ k : Fin 128, L (ix2 p k) * R (ix2 k q) :=
  Cert.PlainMatmul.zero_acc_apply dot_S2000x128_S128x64_S2000x64_1_0_0_1_n_n_wf none L R p q

/-- The clipped degree column of a block, repeated along the 128 columns, reads at (p, k) the larger of `d (p, 0)` and 1. -/
theorem denominator_apply (d : FVec Ideal S2000x1 .f32) (p : Fin 2000) (k : Fin 128) :
    broadcastTo S2000x128 (maximumf (shapeCast S2000x1 d shapeCasts_S2000x1_S2000x1)
        (broadcast S2000x1 (Scalar.ofBits (F := Ideal) .f32 0x3F800000#32))) broadcasts_S2000x1_S2000x128 (ix2 p k)
      = max (d (ix2 p (0 : Fin 1))) (Ideal.ofBits .f32 0x3F800000#32) := by
  rw [Cert.Keepdims.column_repeat_apply, maximumf_apply, shapeCast_self]
  rfl

/-- The first body's stored value at (p, q): the layer of its blocks, then the positive part. -/
theorem stored0_apply (a : FVec Ideal S2000x128 .f32) (d : FVec Ideal S2000x1 .f32) (h : FVec Ideal S2000x128 .f32)
    (wl : FVec Ideal S128x128 .f32) (wr : FVec Ideal S128x128 .f32) (b : FVec Ideal S128 .f32) (p : Fin 2000) (q : Fin 128) :
    k0_pay1 (F := Ideal) a d h wl wr b (ix2 p q)
      = Cert.Sage.convPos a (fun r => d (ix2 r (0 : Fin 1))) h wl b wr (ix2 p q) := by
  unfold k0_pay1
  rw [maximumf_apply, addf_apply, addf_apply, product_wide, product_wide,
    Cert.RowOps.row_repeated_apply]
  unfold Cert.Sage.convPos Cert.Sage.conv
  refine congrArg₂ max (congrArg₂ (· + ·) (congrArg₂ (· + ·) (Finset.sum_congr rfl fun k _ => ?_) rfl) rfl) rfl
  show Ideal.div (shapeCast S2000x128 a shapeCasts_S2000x128_S2000x128 (ix2 p k))
      (broadcastTo S2000x128 _ broadcasts_S2000x1_S2000x128 (ix2 p k)) * wl (ix2 k q) = _
  rw [shapeCast_self, denominator_apply]

/-- The second body's stored value at (p, q): the same, its node features passing through a cast to their own shape. -/
theorem stored1_apply (a : FVec Ideal S2000x128 .f32) (d : FVec Ideal S2000x1 .f32) (h : FVec Ideal S2000x128 .f32)
    (wl : FVec Ideal S128x128 .f32) (wr : FVec Ideal S128x128 .f32) (b : FVec Ideal S128 .f32) (p : Fin 2000) (q : Fin 128) :
    k1_pay1 (F := Ideal) a d h wl wr b (ix2 p q)
      = Cert.Sage.convPos a (fun r => d (ix2 r (0 : Fin 1))) h wl b wr (ix2 p q) := by
  unfold k1_pay1
  rw [maximumf_apply, addf_apply, addf_apply, product_wide, product_wide,
    Cert.RowOps.row_repeated_apply]
  unfold Cert.Sage.convPos Cert.Sage.conv
  refine congrArg₂ max (congrArg₂ (· + ·) (congrArg₂ (· + ·) (Finset.sum_congr rfl fun k _ => ?_) rfl)
    (Finset.sum_congr rfl fun k _ => ?_)) rfl
  · show Ideal.div (shapeCast S2000x128 a shapeCasts_S2000x128_S2000x128 (ix2 p k))
        (broadcastTo S2000x128 _ broadcasts_S2000x1_S2000x128 (ix2 p k)) * wl (ix2 k q) = _
    rw [shapeCast_self, denominator_apply]
  · show shapeCast S2000x128 h shapeCasts_S2000x128_S2000x128 (ix2 p k) * wr (ix2 k q) = _
    rw [shapeCast_self]

/-- The third body's stored value at (p, q): the layer into 64 columns, no positive part. -/
theorem stored2_apply (a : FVec Ideal S2000x128 .f32) (d : FVec Ideal S2000x1 .f32) (h : FVec Ideal S2000x128 .f32)
    (wl : FVec Ideal S128x64 .f32) (wr : FVec Ideal S128x64 .f32) (b : FVec Ideal S64 .f32) (p : Fin 2000) (q : Fin 64) :
    k2_pay1 (F := Ideal) a d h wl wr b (ix2 p q)
      = Cert.Sage.conv a (fun r => d (ix2 r (0 : Fin 1))) h wl b wr (ix2 p q) := by
  unfold k2_pay1
  rw [addf_apply, addf_apply, product_narrow, product_narrow,
    Cert.RowOps.row_repeated_apply]
  unfold Cert.Sage.conv
  refine congrArg₂ (· + ·) (congrArg₂ (· + ·) (Finset.sum_congr rfl fun k _ => ?_) rfl)
    (Finset.sum_congr rfl fun k _ => ?_)
  · show Ideal.div (shapeCast S2000x128 a shapeCasts_S2000x128_S2000x128 (ix2 p k))
        (broadcastTo S2000x128 _ broadcasts_S2000x1_S2000x128 (ix2 p k)) * wl (ix2 k q) = _
    rw [shapeCast_self, denominator_apply]
  · show shapeCast S2000x128 h shapeCasts_S2000x128_S2000x128 (ix2 p k) * wr (ix2 k q) = _
    rw [shapeCast_self]

end Cert.KernelIdeal.SageValue

end
-- ==== Proof.KernelLaunch0.lean ====
/-
  Launch 0 of the layer kernel: from the blocks its grid points write back to the whole result array.

  The grid has 20 points; point t works on rows 2000·t … 2000·t + 1999.  Its blocks of the summed neighbour features,
  of the degree column and of the node features are those rows of their arrays, and the two weight matrices and the
  bias are read whole at every point.  What the point writes back is therefore those rows of ONE function of the arrays
  the launch is entered with: the layer `Cert.Sage.convPos` of them.  The 20 blocks of 2000 rows tile the 40000 rows, so
  after the launch the result array is that function — whatever the arrays at entry are (`V`).
-/
import proofs.«165337_j12541304504870_1_alg».proof.Proof.Gen.KernelIdeal.Frame
import proofs.«165337_j12541304504870_1_alg».proof.Proof.KernelStored
import Idealize.ShloMosaic.Lib.Pipeline.Value

set_option maxRecDepth 16384

noncomputable section

open scoped BigOperators

namespace Cert.KernelIdeal.SageValue.Launch0

open Cert.KernelIdeal Cert.KernelIdeal.Gen Cert.KernelIdeal.SageValue
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a <;> rfl

/-- The result array as one function of the arrays at entry: the layer of the summed neighbour features, the degree
    column, the node features, the two weight matrices and the bias. -/
def result (c : Dev nD) : Buf (Elt Ideal) ((c : Thread nD τ).loc main_v19) :=
  Cert.Sage.convPos (n := 40000) (fi := 128) (fo := 128) (V c main_v17) (fun r => V c main_v18 (ix2 r (0 : Fin 1))) (V c main_arg0)
    (V c main_arg2) (V c main_arg3) (V c main_arg4)

/-- The index maps over the grid: the three row-blocked inputs and the output are at block row t, the weights and the
    bias at block 0. -/
theorem index_maps : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 2) = t.val
    ∧ win0_6.index t (1 : Fin 2) = 0 :=
  (by decide +kernel : ∀ t : Fin grid0.N, _)

/-- Point t's block of the summed neighbour features is rows 2000·t … of that array. -/
theorem rows_neighbours (c : Dev nD) (t : Fin cfg0.N) (p : Fin 2000) (k : Fin 128) (hr : t.val * 2000 + p.val < 40000) :
    iblk0 V c 0 t (ix2 p k) = V c main_v17 (ix2 (⟨t.val * 2000 + p.val, hr⟩ : Fin 40000) k) := by
  obtain ⟨e00, e01, e10, e11, e20, e21, e30, e31, e40, e50, e51, e60, e61⟩ := index_maps t
  show V c main_v17 (((cfg0.win 0).blk t).view.emb (ix2 p k)) = _
  have e : ((cfg0.win 0).blk t).view.emb (ix2 p k) = ix2 (⟨t.val * 2000 + p.val, hr⟩ : Fin 40000) k := by
    funext a; apply Fin.ext
    match a with
    | ⟨0, _⟩ => show win0_0.index t (0 : Fin 2) * 2000 + 1 * p.val = t.val * 2000 + p.val; omega
    | ⟨1, _⟩ => show win0_0.index t (1 : Fin 2) * 128 + 1 * k.val = k.val; omega
  rw [e]

/-- Point t's block of the node features is rows 2000·t … of that array. -/
theorem rows_features (c : Dev nD) (t : Fin cfg0.N) (p : Fin 2000) (k : Fin 128) (hr : t.val * 2000 + p.val < 40000) :
    iblk0 V c 2 t (ix2 p k) = V c main_arg0 (ix2 (⟨t.val * 2000 + p.val, hr⟩ : Fin 40000) k) := by
  obtain ⟨e00, e01, e10, e11, e20, e21, e30, e31, e40, e50, e51, e60, e61⟩ := index_maps t
  show V c main_arg0 (((cfg0.win 2).blk t).view.emb (ix2 p k)) = _
  have e : ((cfg0.win 2).blk t).view.emb (ix2 p k) = ix2 (⟨t.val * 2000 + p.val, hr⟩ : Fin 40000) k := by
    funext a; apply Fin.ext
    match a with
    | ⟨0, _⟩ => show win0_2.index t (0 : Fin 2) * 2000 + 1 * p.val = t.val * 2000 + p.val; omega
    | ⟨1, _⟩ => show win0_2.index t (1 : Fin 2) * 128 + 1 * k.val = k.val; omega
  rw [e]

/-- Point t's block of the degree column is rows 2000·t … of that column. -/
theorem rows_degree (c : Dev nD) (t : Fin cfg0.N) (p : Fin 2000) (hr : t.val * 2000 + p.val < 40000) :
    iblk0 V c 1 t (ix2 p (0 : Fin 1)) = V c main_v18 (ix2 (⟨t.val * 2000 + p.val, hr⟩ : Fin 40000) (0 : Fin 1)) := by
  obtain ⟨e00, e01, e10, e11, e20, e21, e30, e31, e40, e50, e51, e60, e61⟩ := index_maps t
  show V c main_v18 (((cfg0.win 1).blk t).view.emb (ix2 p (0 : Fin 1))) = _
  have e : ((cfg0.win 1).blk t).view.emb (ix2 p (0 : Fin 1)) = ix2 (⟨t.val * 2000 + p.val, hr⟩ : Fin 40000) (0 : Fin 1) := by
    funext a; apply Fin.ext
    match a with
    | ⟨0, _⟩ => show win0_1.index t (0 : Fin 2) * 2000 + 1 * p.val = t.val * 2000 + p.val; omega
    | ⟨1, _⟩ => show win0_1.index t (1 : Fin 2) * 1 + 1 * 0 = 0; omega
  rw [e]

/-- Every point reads the first weight matrix whole. -/
theorem whole_left (c : Dev nD) (t : Fin cfg0.N) (k : Fin 128) (q : Fin 128) :
    iblk0 V c 3 t (ix2 k q) = V c main_arg2 (ix2 k q) := by
  obtain ⟨e00, e01, e10, e11, e20, e21, e30, e31, e40, e50, e51, e60, e61⟩ := index_maps t
  show V c main_arg2 (((cfg0.win 3).blk t).view.emb (ix2 k q)) = _
  have e : ((cfg0.win 3).blk t).view.emb (ix2 k q) = ix2 k q := by
    funext a; apply Fin.ext
    match a with
    | ⟨0, _⟩ => show win0_3.index t (0 : Fin 2) * 128 + 1 * k.val = k.val; omega
    | ⟨1, _⟩ => show win0_3.index t (1 : Fin 2) * 128 + 1 * q.val = q.val; omega
  rw [e]

/-- Every point reads the second weight matrix whole. -/
theorem whole_right (c : Dev nD) (t : Fin cfg0.N) (k : Fin 128) (q : Fin 128) :
    iblk0 V c 5 t (ix2 k q) = V c main_arg4 (ix2 k q) := by
  obtain ⟨e00, e01, e10, e11, e20, e21, e30, e31, e40, e50, e51, e60, e61⟩ := index_maps t
  show V c main_arg4 (((cfg0.win 5).blk t).view.emb (ix2 k q)) = _
  have e : ((cfg0.win 5).blk t).view.emb (ix2 k q) = ix2 k q := by
    funext a; apply Fin.ext
    match a with
    | ⟨0, _⟩ => show win0_5.index t (0 : Fin 2) * 128 + 1 * k.val = k.val; omega
    | ⟨1, _⟩ => show win0_5.index t (1 : Fin 2) * 128 + 1 * q.val = q.val; omega
  rw [e]

/-- Every point reads the bias whole. -/
theorem whole_bias (c : Dev nD) (t : Fin cfg0.N) (q : Fin 128) :
    iblk0 V c 4 t (ix1 q) = V c main_arg3 (ix1 q) := by
  obtain ⟨e00, e01, e10, e11, e20, e21, e30, e31, e40, e50, e51, e60, e61⟩ := index_maps t
  show V c main_arg3 (((cfg0.win 4).blk t).view.emb (ix1 q)) = _
  have e : ((cfg0.win 4).blk t).view.emb (ix1 q) = ix1 q := by
    funext a; apply Fin.ext
    match a with
    | ⟨0, _⟩ => show win0_4.index t (0 : Fin 1) * 128 + 1 * q.val = q.val; omega
  rw [e]

/-- What point t stores at (p, q) of its block is the result function at row 2000·t + p, column q. -/
theorem stored_entry (c : Dev nD) (t : Fin cfg0.N) (j : S2000x128.Idx) :
    k0_pay1 (F := Ideal) (iblk0 V c 0 t) (iblk0 V c 1 t) (iblk0 V c 2 t) (iblk0 V c 3 t) (iblk0 V c 5 t) (iblk0 V c 4 t) j
      = result V c (((cfg0.win 6).blk t).view.emb j) := by
  obtain ⟨p, q, rfl⟩ : ∃ (p : Fin 2000) (q : Fin 128), j = ix2 p q := ⟨j 0, j 1, eq_ix2 j⟩
  obtain ⟨e00, e01, e10, e11, e20, e21, e30, e31, e40, e50, e51, e60, e61⟩ := index_maps t
  have ht : t.val < 20 := by have h : t.val < grid0.N := t.isLt; have hN : grid0.N = 20 := N_0; omega
  have hr : t.val * 2000 + p.val < 40000 := by have := p.isLt; omega
  have e : ((cfg0.win 6).blk t).view.emb (ix2 p q) = ix2 (⟨t.val * 2000 + p.val, hr⟩ : Fin 40000) q := by
    funext a; apply Fin.ext
    match a with
    | ⟨0, _⟩ => show win0_6.index t (0 : Fin 2) * 2000 + 1 * p.val = t.val * 2000 + p.val; omega
    | ⟨1, _⟩ => show win0_6.index t (1 : Fin 2) * 128 + 1 * q.val = q.val; omega
  rw [e, stored0_apply, Cert.Sage.convPos_apply]
  unfold result
  rw [Cert.Sage.convPos_apply, rows_degree V c t p hr, whole_bias V c t q]
  simp only [rows_neighbours V c t p _ hr, rows_features V c t p _ hr, whole_left V c t, whole_right V c t]

/-- WHAT POINT t WRITES BACK is block t of the result function. -/
theorem written_back (c : Dev nD) (t : Fin cfg0.N) :
    (dat0 V c).flushed 6 t = ((cfg0.win 6).blk t).view.read (Elt Ideal) (result V c) := by
  show (cfg0.win 6).cut (grid0.coords t) ((dat0 V c).after 6 t) = _
  rw [after0_6]
  unfold out0_6
  rw [View.canon_unit_zero origin2]
  simp only [View.ld_unit_zero (S := S2000x128) origin2, View.ld_unit_zero (S := S2000x1) origin2,
    View.ld_unit_zero (S := S128x128) origin2, View.ld_unit_zero (S := S128) origin1]
  funext j
  exact stored_entry V c t j

/-- An index of the result array is in point t's block iff each coordinate is in the block's range on its axis. -/
theorem in_block (t : Fin cfg0.N) (i : S40000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v19).slice (win0_6.rect t)).set ↔ _
  rw [View.set_slice_whole, Rect.mem_set_unit]
  exact Iff.rfl

/-- The 20 blocks tile the array: row r is in the block of point r / 2000. -/
theorem tiled (i : S40000x128.Idx) :
    ∃ t : Fin cfg0.N, (cfg0.win 6).flush t = true ∧ i ∈ ((cfg0.win 6).blk t).view.set := by
  have hi0 : (i 0).val < 40000 := (i 0).isLt
  have hi1 : (i 1).val < 128 := (i 1).isLt
  obtain ⟨t, ht⟩ : ∃ t : Fin cfg0.N, t.val = (i 0).val / 2000 :=
    ⟨⟨(i 0).val / 2000, by have hN : grid0.N = 20 := N_0; show (i 0).val / 2000 < grid0.N; omega⟩, rfl⟩
  obtain ⟨e00, e01, e10, e11, e20, e21, e30, e31, e40, e50, e51, e60, e61⟩ := index_maps t
  refine ⟨t, flush0_6 t, ?_⟩
  rw [in_block]
  intro a
  match a with
  | ⟨0, _⟩ =>
    show win0_6.index t (0 : Fin 2) * 2000 ≤ (i 0).val ∧ (i 0).val < win0_6.index t (0 : Fin 2) * 2000 + 2000
    omega
  | ⟨1, _⟩ =>
    show win0_6.index t (1 : Fin 2) * 128 ≤ (i 1).val ∧ (i 1).val < win0_6.index t (1 : Fin 2) * 128 + 128
    omega

/-- THE RESULT ARRAY after the launch is the layer of the arrays the launch is entered with. -/
theorem array_after (c : Dev nD) : (dat0 V c).arrAt 6 cfg0.N = result V c :=
  (dat0 V c).arrAt_eq_of_cover 6 (result V c) (fun t _ => written_back V c t) tiled

end Cert.KernelIdeal.SageValue.Launch0

end
-- ==== Proof.KernelLaunch1.lean ====
/-
  Launch 1 of the layer kernel: from the blocks its grid points write back to the whole result array.

  The grid has 20 points; point t works on rows 2000·t … 2000·t + 1999.  Its blocks of the summed neighbour features,
  of the degree column and of the node features are those rows of their arrays, and the two weight matrices and the
  bias are read whole at every point.  What the point writes back is therefore those rows of ONE function of the arrays
  the launch is entered with: the layer `Cert.Sage.convPos` of them.  The 20 blocks of 2000 rows tile the 40000 rows, so
  after the launch the result array is that function — whatever the arrays at entry are (`V`).
-/
import proofs.«165337_j12541304504870_1_alg».proof.Proof.Gen.KernelIdeal.Frame
import proofs.«165337_j12541304504870_1_alg».proof.Proof.KernelStored
import Idealize.ShloMosaic.Lib.Pipeline.Value

set_option maxRecDepth 16384

noncomputable section

open scoped BigOperators

namespace Cert.KernelIdeal.SageValue.Launch1

open Cert.KernelIdeal Cert.KernelIdeal.Gen Cert.KernelIdeal.SageValue
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a <;> rfl

/-- The result array as one function of the arrays at entry: the layer of the summed neighbour features, the degree
    column, the node features, the two weight matrices and the bias. -/
def result (c : Dev nD) : Buf (Elt Ideal) ((c : Thread nD τ).loc main_v31) :=
  Cert.Sage.convPos (n := 40000) (fi := 128) (fo := 128) (V c main_v29) (fun r => V c main_v30 (ix2 r (0 : Fin 1))) (V c main_v19)
    (V c main_arg5) (V c main_arg6) (V c main_arg7)

/-- The index maps over the grid: the three row-blocked inputs and the output are at block row t, the weights and the
    bias at block 0. -/
theorem index_maps : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 1) = 0
    ∧ win1_5.index t (0 : Fin 2) = 0
    ∧ win1_5.index t (1 : Fin 2) = 0
    ∧ win1_6.index t (0 : Fin 2) = t.val
    ∧ win1_6.index t (1 : Fin 2) = 0 :=
  (by decide +kernel : ∀ t : Fin grid1.N, _)

/-- Point t's block of the summed neighbour features is rows 2000·t … of that array. -/
theorem rows_neighbours (c : Dev nD) (t : Fin cfg1.N) (p : Fin 2000) (k : Fin 128) (hr : t.val * 2000 + p.val < 40000) :
    iblk1 V c 0 t (ix2 p k) = V c main_v29 (ix2 (⟨t.val * 2000 + p.val, hr⟩ : Fin 40000) k) := by
  obtain ⟨e00, e01, e10, e11, e20, e21, e30, e31, e40, e50, e51, e60, e61⟩ := index_maps t
  show V c main_v29 (((cfg1.win 0).blk t).view.emb (ix2 p k)) = _
  have e : ((cfg1.win 0).blk t).view.emb (ix2 p k) = ix2 (⟨t.val * 2000 + p.val, hr⟩ : Fin 40000) k := by
    funext a; apply Fin.ext
    match a with
    | ⟨0, _⟩ => show win1_0.index t (0 : Fin 2) * 2000 + 1 * p.val = t.val * 2000 + p.val; omega
    | ⟨1, _⟩ => show win1_0.index t (1 : Fin 2) * 128 + 1 * k.val = k.val; omega
  rw [e]

/-- Point t's block of the node features is rows 2000·t … of that array. -/
theorem rows_features (c : Dev nD) (t : Fin cfg1.N) (p : Fin 2000) (k : Fin 128) (hr : t.val * 2000 + p.val < 40000) :
    iblk1 V c 2 t (ix2 p k) = V c main_v19 (ix2 (⟨t.val * 2000 + p.val, hr⟩ : Fin 40000) k) := by
  obtain ⟨e00, e01, e10, e11, e20, e21, e30, e31, e40, e50, e51, e60, e61⟩ := index_maps t
  show V c main_v19 (((cfg1.win 2).blk t).view.emb (ix2 p k)) = _
  have e : ((cfg1.win 2).blk t).view.emb (ix2 p k) = ix2 (⟨t.val * 2000 + p.val, hr⟩ : Fin 40000) k := by
    funext a; apply Fin.ext
    match a with
    | ⟨0, _⟩ => show win1_2.index t (0 : Fin 2) * 2000 + 1 * p.val = t.val * 2000 + p.val; omega
    | ⟨1, _⟩ => show win1_2.index t (1 : Fin 2) * 128 + 1 * k.val = k.val; omega
  rw [e]

/-- Point t's block of the degree column is rows 2000·t … of that column. -/
theorem rows_degree (c : Dev nD) (t : Fin cfg1.N) (p : Fin 2000) (hr : t.val * 2000 + p.val < 40000) :
    iblk1 V c 1 t (ix2 p (0 : Fin 1)) = V c main_v30 (ix2 (⟨t.val * 2000 + p.val, hr⟩ : Fin 40000) (0 : Fin 1)) := by
  obtain ⟨e00, e01, e10, e11, e20, e21, e30, e31, e40, e50, e51, e60, e61⟩ := index_maps t
  show V c main_v30 (((cfg1.win 1).blk t).view.emb (ix2 p (0 : Fin 1))) = _
  have e : ((cfg1.win 1).blk t).view.emb (ix2 p (0 : Fin 1)) = ix2 (⟨t.val * 2000 + p.val, hr⟩ : Fin 40000) (0 : Fin 1) := by
    funext a; apply Fin.ext
    match a with
    | ⟨0, _⟩ => show win1_1.index t (0 : Fin 2) * 2000 + 1 * p.val = t.val * 2000 + p.val; omega
    | ⟨1, _⟩ => show win1_1.index t (1 : Fin 2) * 1 + 1 * 0 = 0; omega
  rw [e]

/-- Every point reads the first weight matrix whole. -/
theorem whole_left (c : Dev nD) (t : Fin cfg1.N) (k : Fin 128) (q : Fin 128) :
    iblk1 V c 3 t (ix2 k q) = V c main_arg5 (ix2 k q) := by
  obtain ⟨e00, e01, e10, e11, e20, e21, e30, e31, e40, e50, e51, e60, e61⟩ := index_maps t
  show V c main_arg5 (((cfg1.win 3).blk t).view.emb (ix2 k q)) = _
  have e : ((cfg1.win 3).blk t).view.emb (ix2 k q) = ix2 k q := by
    funext a; apply Fin.ext
    match a with
    | ⟨0, _⟩ => show win1_3.index t (0 : Fin 2) * 128 + 1 * k.val = k.val; omega
    | ⟨1, _⟩ => show win1_3.index t (1 : Fin 2) * 128 + 1 * q.val = q.val; omega
  rw [e]

/-- Every point reads the second weight matrix whole. -/
theorem whole_right (c : Dev nD) (t : Fin cfg1.N) (k : Fin 128) (q : Fin 128) :
    iblk1 V c 5 t (ix2 k q) = V c main_arg7 (ix2 k q) := by
  obtain ⟨e00, e01, e10, e11, e20, e21, e30, e31, e40, e50, e51, e60, e61⟩ := index_maps t
  show V c main_arg7 (((cfg1.win 5).blk t).view.emb (ix2 k q)) = _
  have e : ((cfg1.win 5).blk t).view.emb (ix2 k q) = ix2 k q := by
    funext a; apply Fin.ext
    match a with
    | ⟨0, _⟩ => show win1_5.index t (0 : Fin 2) * 128 + 1 * k.val = k.val; omega
    | ⟨1, _⟩ => show win1_5.index t (1 : Fin 2) * 128 + 1 * q.val = q.val; omega
  rw [e]

/-- Every point reads the bias whole. -/
theorem whole_bias (c : Dev nD) (t : Fin cfg1.N) (q : Fin 128) :
    iblk1 V c 4 t (ix1 q) = V c main_arg6 (ix1 q) := by
  obtain ⟨e00, e01, e10, e11, e20, e21, e30, e31, e40, e50, e51, e60, e61⟩ := index_maps t
  show V c main_arg6 (((cfg1.win 4).blk t).view.emb (ix1 q)) = _
  have e : ((cfg1.win 4).blk t).view.emb (ix1 q) = ix1 q := by
    funext a; apply Fin.ext
    match a with
    | ⟨0, _⟩ => show win1_4.index t (0 : Fin 1) * 128 + 1 * q.val = q.val; omega
  rw [e]

/-- What point t stores at (p, q) of its block is the result function at row 2000·t + p, column q. -/
theorem stored_entry (c : Dev nD) (t : Fin cfg1.N) (j : S2000x128.Idx) :
    k1_pay1 (F := Ideal) (iblk1 V c 0 t) (iblk1 V c 1 t) (iblk1 V c 2 t) (iblk1 V c 3 t) (iblk1 V c 5 t) (iblk1 V c 4 t) j
      = result V c (((cfg1.win 6).blk t).view.emb j) := by
  obtain ⟨p, q, rfl⟩ : ∃ (p : Fin 2000) (q : Fin 128), j = ix2 p q := ⟨j 0, j 1, eq_ix2 j⟩
  obtain ⟨e00, e01, e10, e11, e20, e21, e30, e31, e40, e50, e51, e60, e61⟩ := index_maps t
  have ht : t.val < 20 := by have h : t.val < grid1.N := t.isLt; have hN : grid1.N = 20 := N_1; omega
  have hr : t.val * 2000 + p.val < 40000 := by have := p.isLt; omega
  have e : ((cfg1.win 6).blk t).view.emb (ix2 p q) = ix2 (⟨t.val * 2000 + p.val, hr⟩ : Fin 40000) q := by
    funext a; apply Fin.ext
    match a with
    | ⟨0, _⟩ => show win1_6.index t (0 : Fin 2) * 2000 + 1 * p.val = t.val * 2000 + p.val; omega
    | ⟨1, _⟩ => show win1_6.index t (1 : Fin 2) * 128 + 1 * q.val = q.val; omega
  rw [e, stored1_apply, Cert.Sage.convPos_apply]
  unfold result
  rw [Cert.Sage.convPos_apply, rows_degree V c t p hr, whole_bias V c t q]
  simp only [rows_neighbours V c t p _ hr, rows_features V c t p _ hr, whole_left V c t, whole_right V c t]

/-- WHAT POINT t WRITES BACK is block t of the result function. -/
theorem written_back (c : Dev nD) (t : Fin cfg1.N) :
    (dat1 V c).flushed 6 t = ((cfg1.win 6).blk t).view.read (Elt Ideal) (result V c) := by
  show (cfg1.win 6).cut (grid1.coords t) ((dat1 V c).after 6 t) = _
  rw [after1_6]
  unfold out1_6
  rw [View.canon_unit_zero origin2]
  simp only [View.ld_unit_zero (S := S2000x128) origin2, View.ld_unit_zero (S := S2000x1) origin2,
    View.ld_unit_zero (S := S128x128) origin2, View.ld_unit_zero (S := S128) origin1]
  funext j
  exact stored_entry V c t j

/-- An index of the result array is in point t's block iff each coordinate is in the block's range on its axis. -/
theorem in_block (t : Fin cfg1.N) (i : S40000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v31).slice (win1_6.rect t)).set ↔ _
  rw [View.set_slice_whole, Rect.mem_set_unit]
  exact Iff.rfl

/-- The 20 blocks tile the array: row r is in the block of point r / 2000. -/
theorem tiled (i : S40000x128.Idx) :
    ∃ t : Fin cfg1.N, (cfg1.win 6).flush t = true ∧ i ∈ ((cfg1.win 6).blk t).view.set := by
  have hi0 : (i 0).val < 40000 := (i 0).isLt
  have hi1 : (i 1).val < 128 := (i 1).isLt
  obtain ⟨t, ht⟩ : ∃ t : Fin cfg1.N, t.val = (i 0).val / 2000 :=
    ⟨⟨(i 0).val / 2000, by have hN : grid1.N = 20 := N_1; show (i 0).val / 2000 < grid1.N; omega⟩, rfl⟩
  obtain ⟨e00, e01, e10, e11, e20, e21, e30, e31, e40, e50, e51, e60, e61⟩ := index_maps t
  refine ⟨t, flush1_6 t, ?_⟩
  rw [in_block]
  intro a
  match a with
  | ⟨0, _⟩ =>
    show win1_6.index t (0 : Fin 2) * 2000 ≤ (i 0).val ∧ (i 0).val < win1_6.index t (0 : Fin 2) * 2000 + 2000
    omega
  | ⟨1, _⟩ =>
    show win1_6.index t (1 : Fin 2) * 128 ≤ (i 1).val ∧ (i 1).val < win1_6.index t (1 : Fin 2) * 128 + 128
    omega

/-- THE RESULT ARRAY after the launch is the layer of the arrays the launch is entered with. -/
theorem array_after (c : Dev nD) : (dat1 V c).arrAt 6 cfg1.N = result V c :=
  (dat1 V c).arrAt_eq_of_cover 6 (result V c) (fun t _ => written_back V c t) tiled

end Cert.KernelIdeal.SageValue.Launch1

end
-- ==== Proof.KernelLaunch2.lean ====
/-
  Launch 2 of the layer kernel: from the blocks its grid points write back to the whole result array.

  The grid has 20 points; point t works on rows 2000·t … 2000·t + 1999.  Its blocks of the summed neighbour features,
  of the degree column and of the node features are those rows of their arrays, and the two weight matrices and the
  bias are read whole at every point.  What the point writes back is therefore those rows of ONE function of the arrays
  the launch is entered with: the layer `Cert.Sage.conv` of them.  The 20 blocks of 2000 rows tile the 40000 rows, so
  after the launch the result array is that function — whatever the arrays at entry are (`V`).
-/
import proofs.«165337_j12541304504870_1_alg».proof.Proof.Gen.KernelIdeal.Frame
import proofs.«165337_j12541304504870_1_alg».proof.Proof.KernelStored
import Idealize.ShloMosaic.Lib.Pipeline.Value

set_option maxRecDepth 16384

noncomputable section

open scoped BigOperators

namespace Cert.KernelIdeal.SageValue.Launch2

open Cert.KernelIdeal Cert.KernelIdeal.Gen Cert.KernelIdeal.SageValue
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a <;> rfl

/-- The result array as one function of the arrays at entry: the layer of the summed neighbour features, the degree
    column, the node features, the two weight matrices and the bias. -/
def result (c : Dev nD) : Buf (Elt Ideal) ((c : Thread nD τ).loc main_v43) :=
  Cert.Sage.conv (n := 40000) (fi := 128) (fo := 64) (V c main_v41) (fun r => V c main_v42 (ix2 r (0 : Fin 1))) (V c main_v31)
    (V c main_arg8) (V c main_arg9) (V c main_arg10)

/-- The index maps over the grid: the three row-blocked inputs and the output are at block row t, the weights and the
    bias at block 0. -/
theorem index_maps : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 1) = 0
    ∧ win2_5.index t (0 : Fin 2) = 0
    ∧ win2_5.index t (1 : Fin 2) = 0
    ∧ win2_6.index t (0 : Fin 2) = t.val
    ∧ win2_6.index t (1 : Fin 2) = 0 :=
  (by decide +kernel : ∀ t : Fin grid2.N, _)

/-- Point t's block of the summed neighbour features is rows 2000·t … of that array. -/
theorem rows_neighbours (c : Dev nD) (t : Fin cfg2.N) (p : Fin 2000) (k : Fin 128) (hr : t.val * 2000 + p.val < 40000) :
    iblk2 V c 0 t (ix2 p k) = V c main_v41 (ix2 (⟨t.val * 2000 + p.val, hr⟩ : Fin 40000) k) := by
  obtain ⟨e00, e01, e10, e11, e20, e21, e30, e31, e40, e50, e51, e60, e61⟩ := index_maps t
  show V c main_v41 (((cfg2.win 0).blk t).view.emb (ix2 p k)) = _
  have e : ((cfg2.win 0).blk t).view.emb (ix2 p k) = ix2 (⟨t.val * 2000 + p.val, hr⟩ : Fin 40000) k := by
    funext a; apply Fin.ext
    match a with
    | ⟨0, _⟩ => show win2_0.index t (0 : Fin 2) * 2000 + 1 * p.val = t.val * 2000 + p.val; omega
    | ⟨1, _⟩ => show win2_0.index t (1 : Fin 2) * 128 + 1 * k.val = k.val; omega
  rw [e]

/-- Point t's block of the node features is rows 2000·t … of that array. -/
theorem rows_features (c : Dev nD) (t : Fin cfg2.N) (p : Fin 2000) (k : Fin 128) (hr : t.val * 2000 + p.val < 40000) :
    iblk2 V c 2 t (ix2 p k) = V c main_v31 (ix2 (⟨t.val * 2000 + p.val, hr⟩ : Fin 40000) k) := by
  obtain ⟨e00, e01, e10, e11, e20, e21, e30, e31, e40, e50, e51, e60, e61⟩ := index_maps t
  show V c main_v31 (((cfg2.win 2).blk t).view.emb (ix2 p k)) = _
  have e : ((cfg2.win 2).blk t).view.emb (ix2 p k) = ix2 (⟨t.val * 2000 + p.val, hr⟩ : Fin 40000) k := by
    funext a; apply Fin.ext
    match a with
    | ⟨0, _⟩ => show win2_2.index t (0 : Fin 2) * 2000 + 1 * p.val = t.val * 2000 + p.val; omega
    | ⟨1, _⟩ => show win2_2.index t (1 : Fin 2) * 128 + 1 * k.val = k.val; omega
  rw [e]

/-- Point t's block of the degree column is rows 2000·t … of that column. -/
theorem rows_degree (c : Dev nD) (t : Fin cfg2.N) (p : Fin 2000) (hr : t.val * 2000 + p.val < 40000) :
    iblk2 V c 1 t (ix2 p (0 : Fin 1)) = V c main_v42 (ix2 (⟨t.val * 2000 + p.val, hr⟩ : Fin 40000) (0 : Fin 1)) := by
  obtain ⟨e00, e01, e10, e11, e20, e21, e30, e31, e40, e50, e51, e60, e61⟩ := index_maps t
  show V c main_v42 (((cfg2.win 1).blk t).view.emb (ix2 p (0 : Fin 1))) = _
  have e : ((cfg2.win 1).blk t).view.emb (ix2 p (0 : Fin 1)) = ix2 (⟨t.val * 2000 + p.val, hr⟩ : Fin 40000) (0 : Fin 1) := by
    funext a; apply Fin.ext
    match a with
    | ⟨0, _⟩ => show win2_1.index t (0 : Fin 2) * 2000 + 1 * p.val = t.val * 2000 + p.val; omega
    | ⟨1, _⟩ => show win2_1.index t (1 : Fin 2) * 1 + 1 * 0 = 0; omega
  rw [e]

/-- Every point reads the first weight matrix whole. -/
theorem whole_left (c : Dev nD) (t : Fin cfg2.N) (k : Fin 128) (q : Fin 64) :
    iblk2 V c 3 t (ix2 k q) = V c main_arg8 (ix2 k q) := by
  obtain ⟨e00, e01, e10, e11, e20, e21, e30, e31, e40, e50, e51, e60, e61⟩ := index_maps t
  show V c main_arg8 (((cfg2.win 3).blk t).view.emb (ix2 k q)) = _
  have e : ((cfg2.win 3).blk t).view.emb (ix2 k q) = ix2 k q := by
    funext a; apply Fin.ext
    match a with
    | ⟨0, _⟩ => show win2_3.index t (0 : Fin 2) * 128 + 1 * k.val = k.val; omega
    | ⟨1, _⟩ => show win2_3.index t (1 : Fin 2) * 64 + 1 * q.val = q.val; omega
  rw [e]

/-- Every point reads the second weight matrix whole. -/
theorem whole_right (c : Dev nD) (t : Fin cfg2.N) (k : Fin 128) (q : Fin 64) :
    iblk2 V c 5 t (ix2 k q) = V c main_arg10 (ix2 k q) := by
  obtain ⟨e00, e01, e10, e11, e20, e21, e30, e31, e40, e50, e51, e60, e61⟩ := index_maps t
  show V c main_arg10 (((cfg2.win 5).blk t).view.emb (ix2 k q)) = _
  have e : ((cfg2.win 5).blk t).view.emb (ix2 k q) = ix2 k q := by
    funext a; apply Fin.ext
    match a with
    | ⟨0, _⟩ => show win2_5.index t (0 : Fin 2) * 128 + 1 * k.val = k.val; omega
    | ⟨1, _⟩ => show win2_5.index t (1 : Fin 2) * 64 + 1 * q.val = q.val; omega
  rw [e]

/-- Every point reads the bias whole. -/
theorem whole_bias (c : Dev nD) (t : Fin cfg2.N) (q : Fin 64) :
    iblk2 V c 4 t (ix1 q) = V c main_arg9 (ix1 q) := by
  obtain ⟨e00, e01, e10, e11, e20, e21, e30, e31, e40, e50, e51, e60, e61⟩ := index_maps t
  show V c main_arg9 (((cfg2.win 4).blk t).view.emb (ix1 q)) = _
  have e : ((cfg2.win 4).blk t).view.emb (ix1 q) = ix1 q := by
    funext a; apply Fin.ext
    match a with
    | ⟨0, _⟩ => show win2_4.index t (0 : Fin 1) * 64 + 1 * q.val = q.val; omega
  rw [e]

/-- What point t stores at (p, q) of its block is the result function at row 2000·t + p, column q. -/
theorem stored_entry (c : Dev nD) (t : Fin cfg2.N) (j : S2000x64.Idx) :
    k2_pay1 (F := Ideal) (iblk2 V c 0 t) (iblk2 V c 1 t) (iblk2 V c 2 t) (iblk2 V c 3 t) (iblk2 V c 5 t) (iblk2 V c 4 t) j
      = result V c (((cfg2.win 6).blk t).view.emb j) := by
  obtain ⟨p, q, rfl⟩ : ∃ (p : Fin 2000) (q : Fin 64), j = ix2 p q := ⟨j 0, j 1, eq_ix2 j⟩
  obtain ⟨e00, e01, e10, e11, e20, e21, e30, e31, e40, e50, e51, e60, e61⟩ := index_maps t
  have ht : t.val < 20 := by have h : t.val < grid2.N := t.isLt; have hN : grid2.N = 20 := N_2; omega
  have hr : t.val * 2000 + p.val < 40000 := by have := p.isLt; omega
  have e : ((cfg2.win 6).blk t).view.emb (ix2 p q) = ix2 (⟨t.val * 2000 + p.val, hr⟩ : Fin 40000) q := by
    funext a; apply Fin.ext
    match a with
    | ⟨0, _⟩ => show win2_6.index t (0 : Fin 2) * 2000 + 1 * p.val = t.val * 2000 + p.val; omega
    | ⟨1, _⟩ => show win2_6.index t (1 : Fin 2) * 64 + 1 * q.val = q.val; omega
  rw [e, stored2_apply, Cert.Sage.conv_apply]
  unfold result
  rw [Cert.Sage.conv_apply, rows_degree V c t p hr, whole_bias V c t q]
  simp only [rows_neighbours V c t p _ hr, rows_features V c t p _ hr, whole_left V c t, whole_right V c t]

/-- WHAT POINT t WRITES BACK is block t of the result function. -/
theorem written_back (c : Dev nD) (t : Fin cfg2.N) :
    (dat2 V c).flushed 6 t = ((cfg2.win 6).blk t).view.read (Elt Ideal) (result V c) := by
  show (cfg2.win 6).cut (grid2.coords t) ((dat2 V c).after 6 t) = _
  rw [after2_6]
  unfold out2_6
  rw [View.canon_unit_zero origin2]
  simp only [View.ld_unit_zero (S := S2000x128) origin2, View.ld_unit_zero (S := S2000x1) origin2,
    View.ld_unit_zero (S := S128x64) origin2, View.ld_unit_zero (S := S64) origin1]
  funext j
  exact stored_entry V c t j

/-- An index of the result array is in point t's block iff each coordinate is in the block's range on its axis. -/
theorem in_block (t : Fin cfg2.N) (i : S40000x64.Idx) :
    i ∈ ((cfg2.win 6).blk t).view.set ↔ ∀ a : Fin 2, win2_6.index t a * S2000x64.size a ≤ (i a).val
      ∧ (i a).val < win2_6.index t a * S2000x64.size a + S2000x64.size a := by
  show i ∈ ((View.whole main_v43).slice (win2_6.rect t)).set ↔ _
  rw [View.set_slice_whole, Rect.mem_set_unit]
  exact Iff.rfl

/-- The 20 blocks tile the array: row r is in the block of point r / 2000. -/
theorem tiled (i : S40000x64.Idx) :
    ∃ t : Fin cfg2.N, (cfg2.win 6).flush t = true ∧ i ∈ ((cfg2.win 6).blk t).view.set := by
  have hi0 : (i 0).val < 40000 := (i 0).isLt
  have hi1 : (i 1).val < 64 := (i 1).isLt
  obtain ⟨t, ht⟩ : ∃ t : Fin cfg2.N, t.val = (i 0).val / 2000 :=
    ⟨⟨(i 0).val / 2000, by have hN : grid2.N = 20 := N_2; show (i 0).val / 2000 < grid2.N; omega⟩, rfl⟩
  obtain ⟨e00, e01, e10, e11, e20, e21, e30, e31, e40, e50, e51, e60, e61⟩ := index_maps t
  refine ⟨t, flush2_6 t, ?_⟩
  rw [in_block]
  intro a
  match a with
  | ⟨0, _⟩ =>
    show win2_6.index t (0 : Fin 2) * 2000 ≤ (i 0).val ∧ (i 0).val < win2_6.index t (0 : Fin 2) * 2000 + 2000
    omega
  | ⟨1, _⟩ =>
    show win2_6.index t (1 : Fin 2) * 64 ≤ (i 1).val ∧ (i 1).val < win2_6.index t (1 : Fin 2) * 64 + 64
    omega

/-- THE RESULT ARRAY after the launch is the layer of the arrays the launch is entered with. -/
theorem array_after (c : Dev nD) : (dat2 V c).arrAt 6 cfg2.N = result V c :=
  (dat2 V c).arrAt_eq_of_cover 6 (result V c) (fun t _ => written_back V c t) tiled

end Cert.KernelIdeal.SageValue.Launch2

end
-- ==== Proof.Network.lean ====
/-
  The graph network as the host spells it, and as three layers.

  From the edge list the host takes the source and the target node of every edge.  The degree of a node is the number
  of edges into it — a sum of ones scattered to the targets — and the summed neighbour features of a node are the
  features of the sources of the edges into it, gathered and scattered-added to the targets.  Neither is opened here:
  both programs apply these same operations, so they are carried as the functions `degree` and `neighbourSum`.

  A layer in the host's spelling is the quotient of the summed neighbour features by the clipped degree (kept as a
  column and repeated), its product with `Wl`, the bias (kept as a row and repeated), and the product of the node
  features with `Wr`, added in that order; by `Cert.Sage.host_conv` it is the layer `Cert.Sage.conv`, entry by entry, and
  followed by the host's positive part it is `Cert.Sage.convPos`.  The network is three such layers, the second and third
  fed by the layer before: `network`.
-/
import proofs.«165337_j12541304504870_1_alg».proof.ReferenceIdeal
import proofs.«165337_j12541304504870_1_alg».proof.Proof.Gen.ReferenceIdeal
import proofs.«165337_j12541304504870_1_alg».proof.Proof.SageLayer

noncomputable section

open scoped BigOperators

namespace Cert.ReferenceIdeal.SageValue

open Cert.ReferenceIdeal Cert.ReferenceIdeal.Gen Idealize.ShloMosaic Idealize.ShloMosaic.ValueIdx

/-- The source node of every edge: the first row of the edge list. -/
def sources (e : (⟨S2x640000, .i32⟩ : BufTy).Contents (Elt Ideal)) : (⟨S640000, .i32⟩ : BufTy).Contents (Elt Ideal) :=
  shapeCast _ (extractStridedSlice S1x640000 ![0, 0] e slices_S2x640000_S1x640000_0_0) shapeCasts_S1x640000_S640000

/-- The target node of every edge: the second row of the edge list. -/
def targets (e : (⟨S2x640000, .i32⟩ : BufTy).Contents (Elt Ideal)) : (⟨S640000, .i32⟩ : BufTy).Contents (Elt Ideal) :=
  shapeCast _ (extractStridedSlice S1x640000 ![1, 0] e slices_S2x640000_S1x640000_1_0) shapeCasts_S1x640000_S640000

/-- The number of edges into each node: ones scattered-added to the targets, from zeros. -/
def degree (d : (⟨S640000, .i32⟩ : BufTy).Contents (Elt Ideal)) : FVec Ideal S40000 .f32 :=
  Host.scatterAdd (F := Ideal) scatter_S40000_S640000x1_S640000_n_0_0_1
    (broadcastInDim S40000 ![] bcast_S_S40000 (constant (F := Ideal) S_ .f32 0x00000000#32))
    (broadcastInDim S640000x1 ![0] bcast_S640000_S640000x1_0 d)
    (broadcastInDim S640000 ![] bcast_S_S640000 (constant (F := Ideal) S_ .f32 0x3F800000#32))

/-- The summed neighbour features: the features of each edge's source (a negative source counted from the end),
    scattered-added to the edge's target, from zeros. -/
def neighbourSum (s d : (⟨S640000, .i32⟩ : BufTy).Contents (Elt Ideal)) (h : FVec Ideal S40000x128 .f32) :
    FVec Ideal S40000x128 .f32 :=
  Host.scatterAdd (F := Ideal) scatter_S40000x128_S640000x1_S640000x128_1_0_0_1
    (broadcastInDim S40000x128 ![] bcast_S_S40000x128 (constant (F := Ideal) S_ .f32 0x00000000#32))
    (broadcastInDim S640000x1 ![0] bcast_S640000_S640000x1_0 d)
    (Host.gather gather_S40000x128_S640000x1_S640000x128_1_0_n_n_0_1_1128 h
      (broadcastInDim S640000x1 ![0] bcast_S640000_S640000x1_0
        (select (cmpi .slt s (broadcastInDim S640000 ![] bcast_S_S640000 (constantI S_ 32 0#32)))
          (addi s (broadcastInDim S640000 ![] bcast_S_S640000 (constantI S_ 32 40000#32))) s)))

/-- A layer into 128 columns, in the host's spelling. -/
def hostLayerWide (agg : FVec Ideal S40000x128 .f32) (deg : FVec Ideal S40000 .f32) (h : FVec Ideal S40000x128 .f32)
    (Wl : FVec Ideal S128x128 .f32) (bl : FVec Ideal S128 .f32) (Wr : FVec Ideal S128x128 .f32) : FVec Ideal S40000x128 .f32 :=
  addf (addf (Host.dotGeneral (F := Ideal) dot_S40000x128_S128x128_S40000x128_1_0_0_1_n_n none
        (Host.divf agg (broadcastInDim S40000x128 ![0, 1] bcast_S40000x1_S40000x128_0_1
          (broadcastInDim S40000x1 ![0] bcast_S40000_S40000x1_0
            (maximumf deg (broadcastInDim S40000 ![] bcast_S_S40000 (constant (F := Ideal) S_ .f32 0x3F800000#32)))))) Wl)
      (broadcastInDim S40000x128 ![0, 1] bcast_S1x128_S40000x128_0_1 (broadcastInDim S1x128 ![1] bcast_S128_S1x128_1 bl)))
    (Host.dotGeneral (F := Ideal) dot_S40000x128_S128x128_S40000x128_1_0_0_1_n_n none h Wr)

/-- A layer into 64 columns, in the host's spelling. -/
def hostLayerNarrow (agg : FVec Ideal S40000x128 .f32) (deg : FVec Ideal S40000 .f32) (h : FVec Ideal S40000x128 .f32)
    (Wl : FVec Ideal S128x64 .f32) (bl : FVec Ideal S64 .f32) (Wr : FVec Ideal S128x64 .f32) : FVec Ideal S40000x64 .f32 :=
  addf (addf (Host.dotGeneral (F := Ideal) dot_S40000x128_S128x64_S40000x64_1_0_0_1_n_n none
        (Host.divf agg (broadcastInDim S40000x128 ![0, 1] bcast_S40000x1_S40000x128_0_1
          (broadcastInDim S40000x1 ![0] bcast_S40000_S40000x1_0
            (maximumf deg (broadcastInDim S40000 ![] bcast_S_S40000 (constant (F := Ideal) S_ .f32 0x3F800000#32)))))) Wl)
      (broadcastInDim S40000x64 ![0, 1] bcast_S1x64_S40000x64_0_1 (broadcastInDim S1x64 ![1] bcast_S64_S1x64_1 bl)))
    (Host.dotGeneral (F := Ideal) dot_S40000x128_S128x64_S40000x64_1_0_0_1_n_n none h Wr)

/-- The host's positive part: the larger of each entry and zero. -/
def hostPos (x : FVec Ideal S40000x128 .f32) : FVec Ideal S40000x128 .f32 :=
  maximumf x (broadcastInDim S40000x128 ![] bcast_S_S40000x128 (constant (F := Ideal) S_ .f32 0x00000000#32))

/-- The host's wide layer is the layer `conv`. -/
theorem hostLayerWide_eq (agg : FVec Ideal S40000x128 .f32) (deg : FVec Ideal S40000 .f32) (h : FVec Ideal S40000x128 .f32)
    (Wl : FVec Ideal S128x128 .f32) (bl : FVec Ideal S128 .f32) (Wr : FVec Ideal S128x128 .f32) :
    hostLayerWide agg deg h Wl bl Wr = Cert.Sage.conv agg (fun p => deg (ix1 p)) h Wl bl Wr :=
  Cert.Sage.host_conv dot_S40000x128_S128x128_S40000x128_1_0_0_1_n_n dot_S40000x128_S128x128_S40000x128_1_0_0_1_n_n_wf rfl
    bcast_S_S40000 bcast_S40000_S40000x1_0 bcast_S40000x1_S40000x128_0_1 bcast_S128_S1x128_1 bcast_S1x128_S40000x128_0_1
    agg deg h Wl bl Wr

/-- The host's narrow layer is the layer `conv`. -/
theorem hostLayerNarrow_eq (agg : FVec Ideal S40000x128 .f32) (deg : FVec Ideal S40000 .f32) (h : FVec Ideal S40000x128 .f32)
    (Wl : FVec Ideal S128x64 .f32) (bl : FVec Ideal S64 .f32) (Wr : FVec Ideal S128x64 .f32) :
    hostLayerNarrow agg deg h Wl bl Wr = Cert.Sage.conv agg (fun p => deg (ix1 p)) h Wl bl Wr :=
  Cert.Sage.host_conv dot_S40000x128_S128x64_S40000x64_1_0_0_1_n_n dot_S40000x128_S128x64_S40000x64_1_0_0_1_n_n_wf rfl
    bcast_S_S40000 bcast_S40000_S40000x1_0 bcast_S40000x1_S40000x128_0_1 bcast_S64_S1x64_1 bcast_S1x64_S40000x64_0_1
    agg deg h Wl bl Wr

/-- The host's wide layer followed by its positive part is `convPos`. -/
theorem hostPos_layer_eq (agg : FVec Ideal S40000x128 .f32) (deg : FVec Ideal S40000 .f32) (h : FVec Ideal S40000x128 .f32)
    (Wl : FVec Ideal S128x128 .f32) (bl : FVec Ideal S128 .f32) (Wr : FVec Ideal S128x128 .f32) :
    hostPos (hostLayerWide agg deg h Wl bl Wr) = Cert.Sage.convPos agg (fun p => deg (ix1 p)) h Wl bl Wr := by
  funext i
  unfold hostPos Cert.Sage.convPos
  rw [maximumf_apply, hostLayerWide_eq,
    broadcastInDim_apply ![] bcast_S_S40000x128 (constant (F := Ideal) S_ .f32 0x00000000#32) i ix0 (fun ax => ax.elim0)]
  rfl

/-- The first layer's output: from the features `x` and the edge list `e`. -/
def hidden0 (x : FVec Ideal S40000x128 .f32) (e : (⟨S2x640000, .i32⟩ : BufTy).Contents (Elt Ideal))
    (Wl0 : FVec Ideal S128x128 .f32) (bl0 : FVec Ideal S128 .f32) (Wr0 : FVec Ideal S128x128 .f32) : FVec Ideal S40000x128 .f32 :=
  Cert.Sage.convPos (neighbourSum (sources e) (targets e) x) (fun p => degree (targets e) (ix1 p)) x Wl0 bl0 Wr0

/-- The second layer's output. -/
def hidden1 (x : FVec Ideal S40000x128 .f32) (e : (⟨S2x640000, .i32⟩ : BufTy).Contents (Elt Ideal))
    (Wl0 : FVec Ideal S128x128 .f32) (bl0 : FVec Ideal S128 .f32) (Wr0 : FVec Ideal S128x128 .f32)
    (Wl1 : FVec Ideal S128x128 .f32) (bl1 : FVec Ideal S128 .f32) (Wr1 : FVec Ideal S128x128 .f32) : FVec Ideal S40000x128 .f32 :=
  Cert.Sage.convPos (neighbourSum (sources e) (targets e) (hidden0 x e Wl0 bl0 Wr0)) (fun p => degree (targets e) (ix1 p))
    (hidden0 x e Wl0 bl0 Wr0) Wl1 bl1 Wr1

/-- THE NETWORK: three layers, the last into 64 columns and without the positive part. -/
def network (x : FVec Ideal S40000x128 .f32) (e : (⟨S2x640000, .i32⟩ : BufTy).Contents (Elt Ideal))
    (Wl0 : FVec Ideal S128x128 .f32) (bl0 : FVec Ideal S128 .f32) (Wr0 : FVec Ideal S128x128 .f32)
    (Wl1 : FVec Ideal S128x128 .f32) (bl1 : FVec Ideal S128 .f32) (Wr1 : FVec Ideal S128x128 .f32)
    (Wl2 : FVec Ideal S128x64 .f32) (bl2 : FVec Ideal S64 .f32) (Wr2 : FVec Ideal S128x64 .f32) : FVec Ideal S40000x64 .f32 :=
  Cert.Sage.conv (neighbourSum (sources e) (targets e) (hidden1 x e Wl0 bl0 Wr0 Wl1 bl1 Wr1)) (fun p => degree (targets e) (ix1 p))
    (hidden1 x e Wl0 bl0 Wr0 Wl1 bl1 Wr1) Wl2 bl2 Wr2

/-- The network in the host's spelling, operation by operation. -/
def hostNetwork (x : FVec Ideal S40000x128 .f32) (e : (⟨S2x640000, .i32⟩ : BufTy).Contents (Elt Ideal))
    (Wl0 : FVec Ideal S128x128 .f32) (bl0 : FVec Ideal S128 .f32) (Wr0 : FVec Ideal S128x128 .f32)
    (Wl1 : FVec Ideal S128x128 .f32) (bl1 : FVec Ideal S128 .f32) (Wr1 : FVec Ideal S128x128 .f32)
    (Wl2 : FVec Ideal S128x64 .f32) (bl2 : FVec Ideal S64 .f32) (Wr2 : FVec Ideal S128x64 .f32) : FVec Ideal S40000x64 .f32 :=
  hostLayerNarrow
    (neighbourSum (sources e) (targets e)
      (hostPos (hostLayerWide
        (neighbourSum (sources e) (targets e)
          (hostPos (hostLayerWide (neighbourSum (sources e) (targets e) x) (degree (targets e)) x Wl0 bl0 Wr0)))
        (degree (targets e))
        (hostPos (hostLayerWide (neighbourSum (sources e) (targets e) x) (degree (targets e)) x Wl0 bl0 Wr0)) Wl1 bl1 Wr1)))
    (degree (targets e))
    (hostPos (hostLayerWide
      (neighbourSum (sources e) (targets e)
        (hostPos (hostLayerWide (neighbourSum (sources e) (targets e) x) (degree (targets e)) x Wl0 bl0 Wr0)))
      (degree (targets e))
      (hostPos (hostLayerWide (neighbourSum (sources e) (targets e) x) (degree (targets e)) x Wl0 bl0 Wr0)) Wl1 bl1 Wr1))
    Wl2 bl2 Wr2

/-- The host's spelling is the network. -/
theorem hostNetwork_eq (x : FVec Ideal S40000x128 .f32) (e : (⟨S2x640000, .i32⟩ : BufTy).Contents (Elt Ideal))
    (Wl0 : FVec Ideal S128x128 .f32) (bl0 : FVec Ideal S128 .f32) (Wr0 : FVec Ideal S128x128 .f32)
    (Wl1 : FVec Ideal S128x128 .f32) (bl1 : FVec Ideal S128 .f32) (Wr1 : FVec Ideal S128x128 .f32)
    (Wl2 : FVec Ideal S128x64 .f32) (bl2 : FVec Ideal S64 .f32) (Wr2 : FVec Ideal S128x64 .f32) :
    hostNetwork x e Wl0 bl0 Wr0 Wl1 bl1 Wr1 Wl2 bl2 Wr2 = network x e Wl0 bl0 Wr0 Wl1 bl1 Wr1 Wl2 bl2 Wr2 := by
  unfold hostNetwork network hidden1 hidden0
  rw [hostLayerNarrow_eq, hostPos_layer_eq, hostPos_layer_eq]

end Cert.ReferenceIdeal.SageValue

end
-- ==== Proof.KernelValue.lean ====
/-
  The value of the idealized kernel's result buffer: the network of the launch memory's arguments.

  The buffer contents at the six boundaries of the program are followed from the launch to the end.  The first host
  stretch computes, from the edge list, the sources, the targets and the degree, and from the features their summed
  neighbours and the degree as a column; the first launch turns these and the first layer's weights into the first
  layer's output (the launch's result function, `Launch0.array_after`), and touches nothing else that is read later.
  The second and third stretches sum the neighbours of the layer before — the sources, targets and degree are still
  where the first stretch left them — and the second and third launches apply their layers.  Each step is a reading of
  one operation's result or of a buffer no operation of the stretch writes; the degree column reads, at row p, the
  degree of node p.  At the end the result buffer holds `network` of the eleven arguments.
-/
import proofs.«165337_j12541304504870_1_alg».proof.Proof.KernelRun
import proofs.«165337_j12541304504870_1_alg».proof.Proof.KernelLaunch0
import proofs.«165337_j12541304504870_1_alg».proof.Proof.KernelLaunch1
import proofs.«165337_j12541304504870_1_alg».proof.Proof.KernelLaunch2
import proofs.«165337_j12541304504870_1_alg».proof.Proof.Network
import proofs.«165337_j12541304504870_1_alg».proof.Proof.LibKeepdims
import Idealize.ShloMosaic.Lib.StableHlo.Run

set_option maxRecDepth 16384

noncomputable section

namespace Cert.KernelIdeal.SageValue

open Cert.KernelIdeal Cert.KernelIdeal.Gen
open Idealize.ShloMosaic Idealize.ShloMosaic.TcCoe Idealize.ShloMosaic.ValueIdx Idealize.SL.Sem Idealize.ShloMosaic.StableHlo
open Cert.ReferenceIdeal.SageValue (sources targets degree neighbourSum hidden0 hidden1 network)

/-! ## The three host stretches, from any contents `X` -/

section Stretches

variable (X : Valuation τ sig (Elt Ideal))

/-- After the first stretch: the sources of the edges. -/
theorem first_sources : StableHlo.after (hostOps0 (F := Ideal)) X (Proc.devRef .tc main_v1) = sources (X (Proc.devRef .tc main_arg1)) := by
  after_results
  rfl
/-- After the first stretch: the targets of the edges. -/
theorem first_targets : StableHlo.after (hostOps0 (F := Ideal)) X (Proc.devRef .tc main_v3) = targets (X (Proc.devRef .tc main_arg1)) := by
  after_results
  rfl
/-- After the first stretch: the degree of every node. -/
theorem first_degree : StableHlo.after (hostOps0 (F := Ideal)) X (Proc.devRef .tc main_v7) = degree (targets (X (Proc.devRef .tc main_arg1))) := by
  after_results
  rfl
set_option maxHeartbeats 4000000 in
/-- After the first stretch: the summed neighbour features of the input features. -/
theorem first_sum : StableHlo.after (hostOps0 (F := Ideal)) X (Proc.devRef .tc main_v17)
    = neighbourSum (sources (X (Proc.devRef .tc main_arg1))) (targets (X (Proc.devRef .tc main_arg1))) (X (Proc.devRef .tc main_arg0)) := by
  after_results_simp <;> rfl
/-- After the first stretch: the degree as a column. -/
theorem first_column : StableHlo.after (hostOps0 (F := Ideal)) X (Proc.devRef .tc main_v18)
    = shapeCast S40000x1 (degree (targets (X (Proc.devRef .tc main_arg1)))) shapeCasts_S40000_S40000x1 := by
  after_results
  rfl
/-- The first stretch does not write argument 0. -/
theorem first_keeps_arg0 : StableHlo.after (hostOps0 (F := Ideal)) X (Proc.devRef .tc main_arg0) = X (Proc.devRef .tc main_arg0) := by
  after_results
/-- The first stretch does not write argument 2. -/
theorem first_keeps_arg2 : StableHlo.after (hostOps0 (F := Ideal)) X (Proc.devRef .tc main_arg2) = X (Proc.devRef .tc main_arg2) := by
  after_results
/-- The first stretch does not write argument 3. -/
theorem first_keeps_arg3 : StableHlo.after (hostOps0 (F := Ideal)) X (Proc.devRef .tc main_arg3) = X (Proc.devRef .tc main_arg3) := by
  after_results
/-- The first stretch does not write argument 4. -/
theorem first_keeps_arg4 : StableHlo.after (hostOps0 (F := Ideal)) X (Proc.devRef .tc main_arg4) = X (Proc.devRef .tc main_arg4) := by
  after_results
/-- The first stretch does not write argument 5. -/
theorem first_keeps_arg5 : StableHlo.after (hostOps0 (F := Ideal)) X (Proc.devRef .tc main_arg5) = X (Proc.devRef .tc main_arg5) := by
  after_results
/-- The first stretch does not write argument 6. -/
theorem first_keeps_arg6 : StableHlo.after (hostOps0 (F := Ideal)) X (Proc.devRef .tc main_arg6) = X (Proc.devRef .tc main_arg6) := by
  after_results
/-- The first stretch does not write argument 7. -/
theorem first_keeps_arg7 : StableHlo.after (hostOps0 (F := Ideal)) X (Proc.devRef .tc main_arg7) = X (Proc.devRef .tc main_arg7) := by
  after_results
/-- The first stretch does not write argument 8. -/
theorem first_keeps_arg8 : StableHlo.after (hostOps0 (F := Ideal)) X (Proc.devRef .tc main_arg8) = X (Proc.devRef .tc main_arg8) := by
  after_results
/-- The first stretch does not write argument 9. -/
theorem first_keeps_arg9 : StableHlo.after (hostOps0 (F := Ideal)) X (Proc.devRef .tc main_arg9) = X (Proc.devRef .tc main_arg9) := by
  after_results
/-- The first stretch does not write argument 10. -/
theorem first_keeps_arg10 : StableHlo.after (hostOps0 (F := Ideal)) X (Proc.devRef .tc main_arg10) = X (Proc.devRef .tc main_arg10) := by
  after_results

/-- After the second stretch: the summed neighbour features of the first layer's output. -/
theorem second_sum : StableHlo.after (hostOps1 (F := Ideal)) X (Proc.devRef .tc main_v29)
    = neighbourSum (X (Proc.devRef .tc main_v1)) (X (Proc.devRef .tc main_v3)) (X (Proc.devRef .tc main_v19)) := by
  after_results
  rfl
/-- After the second stretch: the degree as a column. -/
theorem second_column : StableHlo.after (hostOps1 (F := Ideal)) X (Proc.devRef .tc main_v30)
    = shapeCast S40000x1 (X (Proc.devRef .tc main_v7)) shapeCasts_S40000_S40000x1 := by
  after_results
  rfl
/-- The second stretch does not write `main_v1`. -/
theorem second_keeps_v1 : StableHlo.after (hostOps1 (F := Ideal)) X (Proc.devRef .tc main_v1) = X (Proc.devRef .tc main_v1) := by
  after_results
/-- The second stretch does not write `main_v3`. -/
theorem second_keeps_v3 : StableHlo.after (hostOps1 (F := Ideal)) X (Proc.devRef .tc main_v3) = X (Proc.devRef .tc main_v3) := by
  after_results
/-- The second stretch does not write `main_v7`. -/
theorem second_keeps_v7 : StableHlo.after (hostOps1 (F := Ideal)) X (Proc.devRef .tc main_v7) = X (Proc.devRef .tc main_v7) := by
  after_results
/-- The second stretch does not write `main_v19`. -/
theorem second_keeps_v19 : StableHlo.after (hostOps1 (F := Ideal)) X (Proc.devRef .tc main_v19) = X (Proc.devRef .tc main_v19) := by
  after_results
/-- The second stretch does not write `main_arg5`. -/
theorem second_keeps_arg5 : StableHlo.after (hostOps1 (F := Ideal)) X (Proc.devRef .tc main_arg5) = X (Proc.devRef .tc main_arg5) := by
  after_results
/-- The second stretch does not write `main_arg6`. -/
theorem second_keeps_arg6 : StableHlo.after (hostOps1 (F := Ideal)) X (Proc.devRef .tc main_arg6) = X (Proc.devRef .tc main_arg6) := by
  after_results
/-- The second stretch does not write `main_arg7`. -/
theorem second_keeps_arg7 : StableHlo.after (hostOps1 (F := Ideal)) X (Proc.devRef .tc main_arg7) = X (Proc.devRef .tc main_arg7) := by
  after_results
/-- The second stretch does not write `main_arg8`. -/
theorem second_keeps_arg8 : StableHlo.after (hostOps1 (F := Ideal)) X (Proc.devRef .tc main_arg8) = X (Proc.devRef .tc main_arg8) := by
  after_results
/-- The second stretch does not write `main_arg9`. -/
theorem second_keeps_arg9 : StableHlo.after (hostOps1 (F := Ideal)) X (Proc.devRef .tc main_arg9) = X (Proc.devRef .tc main_arg9) := by
  after_results
/-- The second stretch does not write `main_arg10`. -/
theorem second_keeps_arg10 : StableHlo.after (hostOps1 (F := Ideal)) X (Proc.devRef .tc main_arg10) = X (Proc.devRef .tc main_arg10) := by
  after_results

/-- After the third stretch: the summed neighbour features of the second layer's output. -/
theorem third_sum : StableHlo.after (hostOps2 (F := Ideal)) X (Proc.devRef .tc main_v41)
    = neighbourSum (X (Proc.devRef .tc main_v1)) (X (Proc.devRef .tc main_v3)) (X (Proc.devRef .tc main_v31)) := by
  after_results
  rfl
/-- After the third stretch: the degree as a column. -/
theorem third_column : StableHlo.after (hostOps2 (F := Ideal)) X (Proc.devRef .tc main_v42)
    = shapeCast S40000x1 (X (Proc.devRef .tc main_v7)) shapeCasts_S40000_S40000x1 := by
  after_results
  rfl
/-- The third stretch does not write `main_v31`. -/
theorem third_keeps_v31 : StableHlo.after (hostOps2 (F := Ideal)) X (Proc.devRef .tc main_v31) = X (Proc.devRef .tc main_v31) := by
  after_results
/-- The third stretch does not write `main_arg8`. -/
theorem third_keeps_arg8 : StableHlo.after (hostOps2 (F := Ideal)) X (Proc.devRef .tc main_arg8) = X (Proc.devRef .tc main_arg8) := by
  after_results
/-- The third stretch does not write `main_arg9`. -/
theorem third_keeps_arg9 : StableHlo.after (hostOps2 (F := Ideal)) X (Proc.devRef .tc main_arg9) = X (Proc.devRef .tc main_arg9) := by
  after_results
/-- The third stretch does not write `main_arg10`. -/
theorem third_keeps_arg10 : StableHlo.after (hostOps2 (F := Ideal)) X (Proc.devRef .tc main_arg10) = X (Proc.devRef .tc main_arg10) := by
  after_results

end Stretches

/-- The degree kept as a column reads, at row p, the degree of node p. -/
theorem column_entry (g : FVec Ideal S40000 .f32) :
    (fun r : Fin 40000 => shapeCast S40000x1 g shapeCasts_S40000_S40000x1 (ix2 r (0 : Fin 1))) = fun p => g (ix1 p) :=
  funext fun r => Cert.Keepdims.column_cast_apply g shapeCasts_S40000_S40000x1 r

/-! ## The boundaries of the run -/

variable (m : (ℓ : Loc nD τ sig) → Buf (Elt Ideal) ℓ) (ρ : Dev nD → PrngReg) (c : Dev nD)

/-- THE FIRST LAYER: after the first launch its result buffer holds the first layer's output. -/
theorem after_first_launch : W2 m ρ c (Proc.devRef .tc main_v19) = hidden0 (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 6).trans ((Launch0.array_after (V1 m ρ) c).trans ?_)
  unfold Launch0.result hidden0
  rw [show V1 m ρ c main_v17 = _ from first_sum (W0 m ρ c), show V1 m ρ c main_v18 = _ from first_column (W0 m ρ c),
    show V1 m ρ c main_arg0 = _ from first_keeps_arg0 (W0 m ρ c), show V1 m ρ c main_arg2 = _ from first_keeps_arg2 (W0 m ρ c),
    show V1 m ρ c main_arg3 = _ from first_keeps_arg3 (W0 m ρ c), show V1 m ρ c main_arg4 = _ from first_keeps_arg4 (W0 m ρ c),
    column_entry]

/-- The first launch leaves `main_v1` as the first stretch left it. -/
theorem between_first_v1 : W2 m ρ c (Proc.devRef .tc main_v1) = sources (m ((c : Thread nD τ).loc main_arg1)) :=
  (W2_of_ne m ρ c main_v1 (by decide)).trans (first_sources (W0 m ρ c))
/-- The first launch leaves `main_v3` as the first stretch left it. -/
theorem between_first_v3 : W2 m ρ c (Proc.devRef .tc main_v3) = targets (m ((c : Thread nD τ).loc main_arg1)) :=
  (W2_of_ne m ρ c main_v3 (by decide)).trans (first_targets (W0 m ρ c))
/-- The first launch leaves `main_v7` as the first stretch left it. -/
theorem between_first_v7 : W2 m ρ c (Proc.devRef .tc main_v7) = degree (targets (m ((c : Thread nD τ).loc main_arg1))) :=
  (W2_of_ne m ρ c main_v7 (by decide)).trans (first_degree (W0 m ρ c))
/-- The first launch leaves `main_arg5` as the first stretch left it. -/
theorem between_first_arg5 : W2 m ρ c (Proc.devRef .tc main_arg5) = m ((c : Thread nD τ).loc main_arg5) :=
  (W2_of_ne m ρ c main_arg5 (by decide)).trans (first_keeps_arg5 (W0 m ρ c))
/-- The first launch leaves `main_arg6` as the first stretch left it. -/
theorem between_first_arg6 : W2 m ρ c (Proc.devRef .tc main_arg6) = m ((c : Thread nD τ).loc main_arg6) :=
  (W2_of_ne m ρ c main_arg6 (by decide)).trans (first_keeps_arg6 (W0 m ρ c))
/-- The first launch leaves `main_arg7` as the first stretch left it. -/
theorem between_first_arg7 : W2 m ρ c (Proc.devRef .tc main_arg7) = m ((c : Thread nD τ).loc main_arg7) :=
  (W2_of_ne m ρ c main_arg7 (by decide)).trans (first_keeps_arg7 (W0 m ρ c))
/-- The first launch leaves `main_arg8` as the first stretch left it. -/
theorem between_first_arg8 : W2 m ρ c (Proc.devRef .tc main_arg8) = m ((c : Thread nD τ).loc main_arg8) :=
  (W2_of_ne m ρ c main_arg8 (by decide)).trans (first_keeps_arg8 (W0 m ρ c))
/-- The first launch leaves `main_arg9` as the first stretch left it. -/
theorem between_first_arg9 : W2 m ρ c (Proc.devRef .tc main_arg9) = m ((c : Thread nD τ).loc main_arg9) :=
  (W2_of_ne m ρ c main_arg9 (by decide)).trans (first_keeps_arg9 (W0 m ρ c))
/-- The first launch leaves `main_arg10` as the first stretch left it. -/
theorem between_first_arg10 : W2 m ρ c (Proc.devRef .tc main_arg10) = m ((c : Thread nD τ).loc main_arg10) :=
  (W2_of_ne m ρ c main_arg10 (by decide)).trans (first_keeps_arg10 (W0 m ρ c))

/-- THE SECOND LAYER: after the second launch its result buffer holds the second layer's output. -/
theorem after_second_launch : W4 m ρ c (Proc.devRef .tc main_v31)
    = hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 6).trans ((Launch1.array_after (V3 m ρ) c).trans ?_)
  unfold Launch1.result hidden1
  rw [show V3 m ρ c main_v29 = _ from second_sum (W2 m ρ c), show V3 m ρ c main_v30 = _ from second_column (W2 m ρ c),
    show V3 m ρ c main_v19 = _ from second_keeps_v19 (W2 m ρ c), show V3 m ρ c main_arg5 = _ from second_keeps_arg5 (W2 m ρ c),
    show V3 m ρ c main_arg6 = _ from second_keeps_arg6 (W2 m ρ c), show V3 m ρ c main_arg7 = _ from second_keeps_arg7 (W2 m ρ c),
    between_first_v1, between_first_v3, between_first_v7, after_first_launch, between_first_arg5, between_first_arg6,
    between_first_arg7, column_entry]

/-- The second stretch and the second launch leave `main_v1` as it was. -/
theorem between_second_v1 : W4 m ρ c (Proc.devRef .tc main_v1) = sources (m ((c : Thread nD τ).loc main_arg1)) :=
  (W4_of_ne m ρ c main_v1 (by decide)).trans ((second_keeps_v1 (W2 m ρ c)).trans (between_first_v1 m ρ c))
/-- The second stretch and the second launch leave `main_v3` as it was. -/
theorem between_second_v3 : W4 m ρ c (Proc.devRef .tc main_v3) = targets (m ((c : Thread nD τ).loc main_arg1)) :=
  (W4_of_ne m ρ c main_v3 (by decide)).trans ((second_keeps_v3 (W2 m ρ c)).trans (between_first_v3 m ρ c))
/-- The second stretch and the second launch leave `main_v7` as it was. -/
theorem between_second_v7 : W4 m ρ c (Proc.devRef .tc main_v7) = degree (targets (m ((c : Thread nD τ).loc main_arg1))) :=
  (W4_of_ne m ρ c main_v7 (by decide)).trans ((second_keeps_v7 (W2 m ρ c)).trans (between_first_v7 m ρ c))
/-- The second stretch and the second launch leave `main_arg8` as it was. -/
theorem between_second_arg8 : W4 m ρ c (Proc.devRef .tc main_arg8) = m ((c : Thread nD τ).loc main_arg8) :=
  (W4_of_ne m ρ c main_arg8 (by decide)).trans ((second_keeps_arg8 (W2 m ρ c)).trans (between_first_arg8 m ρ c))
/-- The second stretch and the second launch leave `main_arg9` as it was. -/
theorem between_second_arg9 : W4 m ρ c (Proc.devRef .tc main_arg9) = m ((c : Thread nD τ).loc main_arg9) :=
  (W4_of_ne m ρ c main_arg9 (by decide)).trans ((second_keeps_arg9 (W2 m ρ c)).trans (between_first_arg9 m ρ c))
/-- The second stretch and the second launch leave `main_arg10` as it was. -/
theorem between_second_arg10 : W4 m ρ c (Proc.devRef .tc main_arg10) = m ((c : Thread nD τ).loc main_arg10) :=
  (W4_of_ne m ρ c main_arg10 (by decide)).trans ((second_keeps_arg10 (W2 m ρ c)).trans (between_first_arg10 m ρ c))

/-- THE THIRD LAYER: at the end the result buffer holds the network of the eleven arguments. -/
theorem after_third_launch : W6 m ρ c (Proc.devRef .tc main_v43)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 6).trans ((Launch2.array_after (V5 m ρ) c).trans ?_)
  unfold Launch2.result network
  rw [show V5 m ρ c main_v41 = _ from third_sum (W4 m ρ c), show V5 m ρ c main_v42 = _ from third_column (W4 m ρ c),
    show V5 m ρ c main_v31 = _ from third_keeps_v31 (W4 m ρ c), show V5 m ρ c main_arg8 = _ from third_keeps_arg8 (W4 m ρ c),
    show V5 m ρ c main_arg9 = _ from third_keeps_arg9 (W4 m ρ c), show V5 m ρ c main_arg10 = _ from third_keeps_arg10 (W4 m ρ c),
    between_second_v1, between_second_v3, between_second_v7, after_second_launch, between_second_arg8, between_second_arg9,
    between_second_arg10, column_entry]

end Cert.KernelIdeal.SageValue

end
-- ==== Proof.RefValue.lean ====
/-
  The idealized reference's result: the network of its arguments.

  The reference's run ends with its result buffer at the composed term of its 103 host operations.  Read with the
  sources, the targets, the degree, the summed neighbour features, the two layer spellings and the positive part named,
  that term is the network in the host's spelling, operation for operation; so it is `network` of the eleven arguments.
-/
import proofs.«165337_j12541304504870_1_alg».proof.Proof.Gen.ReferenceIdeal.Run
import proofs.«165337_j12541304504870_1_alg».proof.Proof.Network

set_option maxRecDepth 16384

noncomputable section

namespace Cert.ReferenceIdeal.SageValue

open Cert.ReferenceIdeal Cert.ReferenceIdeal.Gen Cert.ReferenceIdeal.Value
open Idealize.ShloMosaic Idealize.ShloMosaic.TcCoe Idealize.SL.Sem

/-- The reference's result term is the network in the host's spelling. -/
theorem result_spelled (m : (ℓ : Loc nD τ sig) → Buf (Elt Ideal) ℓ) (c : Dev nD) :
    res_out0 (F := Ideal) m c
      = hostNetwork (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  show res_main_v80 (F := Ideal) m c = _
  unfold res_main_v80 hostNetwork hostLayerNarrow hostLayerWide hostPos neighbourSum degree sources targets
  rfl

/-- THE REFERENCE'S RESULT is the network of its arguments. -/
theorem result_eq (m : (ℓ : Loc nD τ sig) → Buf (Elt Ideal) ℓ) (c : Dev nD) :
    res_out0 (F := Ideal) m c
      = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (result_spelled m c).trans (hostNetwork_eq _ _ _ _ _ _ _ _ _ _ _)

end Cert.ReferenceIdeal.SageValue

end
-- ==== Proof.lean ====
/-
  A three-layer graph network with mean aggregation, as a tiled kernel against its host reference.

  Each layer maps node features H to  (A / max(deg, 1)) · Wl + bl + H · Wr , where A sums, for every node, the
  features of the sources of the edges into it and deg counts those edges; the first two layers are followed by the
  positive part.  The kernel computes A and deg on the host and runs each layer as a launch over 20 blocks of 2000 rows;
  the reference is the same network in host operations throughout.  On the extended reals both are the function
  `network` of the eleven arguments: the kernel's result buffer by following the buffer contents through the three
  host stretches and three launches (KernelValue, over KernelLaunch0–2 and KernelStored), the reference's by reading its
  composed term (RefValue, over Network); the two layer spellings meet in `Cert.Sage.conv` (SageLayer), entry by entry and
  with the same operations in the same order, so no finiteness of the inputs is used.  The idealization rewrote no
  operation, so `preserves` is trivial; the three frames are the generated ones.
-/
import proofs.«165337_j12541304504870_1_alg».proof.Defs
import proofs.«165337_j12541304504870_1_alg».proof.Proof.Gen.Kernel
import proofs.«165337_j12541304504870_1_alg».proof.Proof.Gen.Kernel.Frame
import proofs.«165337_j12541304504870_1_alg».proof.Proof.Gen.KernelIdeal
import proofs.«165337_j12541304504870_1_alg».proof.Proof.Gen.KernelIdeal.Frame
import proofs.«165337_j12541304504870_1_alg».proof.Proof.Gen.ReferenceIdeal
import proofs.«165337_j12541304504870_1_alg».proof.Proof.Gen.Pre_finite_inputs
import proofs.«165337_j12541304504870_1_alg».proof.Proof.Gen.ReferenceIdeal.Run
import proofs.«165337_j12541304504870_1_alg».proof.Proof.KernelRun
import proofs.«165337_j12541304504870_1_alg».proof.Proof.KernelValue
import proofs.«165337_j12541304504870_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments. -/
theorem frame_kernel : Cert.frame_Kernel := fun m ρ _ => Cert.Kernel.Gen.frame m ρ

/-- The idealized kernel runs and leaves its arguments. -/
theorem frame_kernel_ideal : Cert.frame_KernelIdeal := fun m ρ _ => Cert.KernelIdeal.Gen.frame m ρ

/-- The idealized reference runs and leaves its arguments: its run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the network of the arguments in their result buffer. -/
theorem algebraic : Cert.algebraic_KernelIdeal_ReferenceIdeal := by
  intro m ρ m' ρ' _ hagree
  refine ⟨fun c => Cert.ReferenceIdeal.SageValue.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.SageValue.after_third_launch m ρ c), (h c).2⟩)
      (Cert.KernelIdeal.SageValue.run_result (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.SageValue.result_eq m' c).trans ?_
    obtain ⟨h0, h1, h2, h3, h4, h5, h6, h7, h8, h9, h10⟩ := hagree c
    rw [h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
